-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v211)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v211) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x1600000 : Shape := ⟨2, ![2, 1600000]⟩
abbrev S256x512 : Shape := ⟨2, ![256, 512]⟩
abbrev S64x256 : Shape := ⟨2, ![64, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S64x256 : S_.BroadcastsInDim S64x256 (![] : Fin 0 → Fin S64x256.rank)
  reducesTo_S64x256_S_d0_1 : S64x256.ReducesTo [0, 1] S_

variable [Facts]

def fn {F : FTy → Type} [FloatOps F] (main_arg0 : FVec F S50000x512 .f32) (main_arg1 : IVec S2x1600000 32) (main_arg2 : FVec F S256x512 .f32) (main_arg3 : FVec F S64x256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S256x512 .f32 := Host.absf main_arg2
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S64x256 .f32 := Host.absf main_arg3
  let main_cst_2 : FVec F S_ .f32 := constant S_ .f32 0x7F800000#32
  let main_v10 : FVec F S64x256 .f32 := broadcastInDim S64x256 ![] bcast_S_S64x256 main_cst_2
  let main_v11 : IVec S64x256 1 := cmpf .olt main_v9 main_v10
  let main_c_3 : IVec S_ 1 := constantI S_ 1 1#1
  let main_v12 : IVec S_ 1 := (fun x v => Host.reduce IntOp.andi x v reducesTo_S64x256_S_d0_1 h_S_) main_v11 main_c_3
  let main_v13 : IVec S_ 1 := andi main_v8 main_v12
  main_v13
-- ==== Kernel.lean ====
abbrev S50000x512 : Shape := ⟨2, ![50000, 512]⟩
abbrev S2x1600000 : Shape := ⟨2, ![2, 1600000]⟩
abbrev S256x512 : Shape := ⟨2, ![256, 512]⟩
abbrev S64x256 : Shape := ⟨2, ![64, 256]⟩
abbrev S50000x64 : Shape := ⟨2, ![50000, 64]⟩
abbrev S1000x512 : Shape := ⟨2, ![1000, 512]⟩
abbrev S1000x64 : Shape := ⟨2, ![1000, 64]⟩
abbrev S1000x256 : Shape := ⟨2, ![1000, 256]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S1650000x64 : Shape := ⟨2, ![1650000, 64]⟩
abbrev S50000x1 : Shape := ⟨2, ![50000, 1]⟩

abbrev nBuf : Space → Nat
  | .hbm => 290
  | .vmem => 6
  | .smem => 0
  | _ => 0

abbrev hbmTy0_0 (i : Nat) : BufTy := match i % 128 with
  | 0 => ⟨S50000x512, .f32⟩
  | 1 => ⟨S2x1600000, .i32⟩
  | 2 => ⟨S256x512, .f32⟩
  | 3 => ⟨S64x256, .f32⟩
  | 4 => ⟨S50000x64, .f32⟩
  | 5 => ⟨S50000, .i32⟩
  | 6 => ⟨S1x1600000, .i32⟩
  | 7 => ⟨S1600000, .i32⟩
  | 8 => ⟨S1650000, .i32⟩
  | 9 => ⟨S1x1600000, .i32⟩
  | 10 => ⟨S1600000, .i32⟩
  | 11 => ⟨S1650000, .i32⟩
  | 12 => ⟨S_, .f32⟩
  | 13 => ⟨S1650000, .f32⟩
  | 14 => ⟨S_, .f32⟩
  | 15 => ⟨S50000, .f32⟩
  | 16 => ⟨S1650000x1, .i32⟩
  | 17 => ⟨S50000, .f32⟩
  | 18 => ⟨S_, .f32⟩
  | 19 => ⟨S50000, .f32⟩
  | 20 => ⟨S50000, .i1⟩
  | 21 => ⟨S50000, .f32⟩
  | 22 => ⟨S_, .f32⟩
  | 23 => ⟨S_, .f32⟩
  | 24 => ⟨S50000, .f32⟩
  | 25 => ⟨S50000, .f32⟩
  | 26 => ⟨S_, .i32⟩
  | 27 => ⟨S1650000, .i32⟩
  | 28 => ⟨S1650000, .i1⟩
  | 29 => ⟨S_, .i32⟩
  | 30 => ⟨S1650000, .i32⟩
  | 31 => ⟨S1650000, .i32⟩
  | 32 => ⟨S1650000, .i32⟩
  | 33 => ⟨S1650000x1, .i32⟩
  | 34 => ⟨S1650000, .f32⟩
  | 35 => ⟨S_, .i32⟩
  | 36 => ⟨S1650000, .i32⟩
  | 37 => ⟨S1650000, .i1⟩
  | 38 => ⟨S_, .i32⟩
  | 39 => ⟨S1650000, .i32⟩
  | 40 => ⟨S1650000, .i32⟩
  | 41 => ⟨S1650000, .i32⟩
  | 42 => ⟨S1650000x1, .i32⟩
  | 43 => ⟨S1650000, .f32⟩
  | 44 => ⟨S1650000, .f32⟩
  | 45 => ⟨S1650000x1, .f32⟩
  | 46 => ⟨S_, .i32⟩
  | 47 => ⟨S1650000, .i32⟩
  | 48 => ⟨S1650000, .i1⟩
  | 49 => ⟨S_, .i32⟩
  | 50 => ⟨S1650000, .i32⟩
  | 51 => ⟨S1650000, .i32⟩
  | 52 => ⟨S1650000, .i32⟩
  | 53 => ⟨S1650000x1, .i32⟩
  | 54 => ⟨S1650000x64, .f32⟩
  | 55 => ⟨S1650000x64, .f32⟩
  | 56 => ⟨S1650000x64, .f32⟩
  | 57 => ⟨S_, .f32⟩
  | 58 => ⟨S50000x64, .f32⟩
  | 59 => ⟨S1650000x1, .i32⟩
  | 60 => ⟨S50000x64, .f32⟩
  | 61 => ⟨S_, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S50000x64, .f32⟩
  | 68 => ⟨S1650000x1, .f32⟩
  | 69 => ⟨S_, .i32⟩
  | 70 => ⟨S1650000, .i32⟩
  | 71 => ⟨S1650000, .i1⟩
  | 72 => ⟨S_, .i32⟩
  | 73 => ⟨S1650000, .i32⟩
  | 74 => ⟨S1650000, .i32⟩
  | 75 => ⟨S1650000, .i32⟩
  | 76 => ⟨S1650000x1, .i32⟩
  | 77 => ⟨S1650000x64, .f32⟩
  | 78 => ⟨S1650000x64, .f32⟩
  | 79 => ⟨S1650000x64, .f32⟩
  | 80 => ⟨S_, .f32⟩
  | 81 => ⟨S50000x64, .f32⟩
  | 82 => ⟨S1650000x1, .i32⟩
  | 83 => ⟨S50000x64, .f32⟩
  | 84 => ⟨S_, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S1650000x1, .f32⟩
  | 92 => ⟨S_, .i32⟩
  | 93 => ⟨S1650000, .i32⟩
  | 94 => ⟨S1650000, .i1⟩
  | 95 => ⟨S_, .i32⟩
  | 96 => ⟨S1650000, .i32⟩
  | 97 => ⟨S1650000, .i32⟩
  | 98 => ⟨S1650000, .i32⟩
  | 99 => ⟨S1650000x1, .i32⟩
  | 100 => ⟨S1650000x64, .f32⟩
  | 101 => ⟨S1650000x64, .f32⟩
  | 102 => ⟨S1650000x64, .f32⟩
  | 103 => ⟨S_, .f32⟩
  | 104 => ⟨S50000x64, .f32⟩
  | 105 => ⟨S1650000x1, .i32⟩
  | 106 => ⟨S50000x64, .f32⟩
  | 107 => ⟨S_, .f32⟩
  | 108 => ⟨S50000x64, .f32⟩
  | 109 => ⟨S50000x64, .f32⟩
  | 110 => ⟨S_, .f32⟩
  | 111 => ⟨S50000x64, .f32⟩
  | 112 => ⟨S50000x64, .f32⟩
  | 113 => ⟨S50000x64, .f32⟩
  | 114 => ⟨S1650000x1, .f32⟩
  | 115 => ⟨S_, .i32⟩
  | 116 => ⟨S1650000, .i32⟩
  | 117 => ⟨S1650000, .i1⟩
  | 118 => ⟨S_, .i32⟩
  | 119 => ⟨S1650000, .i32⟩
  | 120 => ⟨S1650000, .i32⟩
  | 121 => ⟨S1650000, .i32⟩
  | 122 => ⟨S1650000x1, .i32⟩
  | 123 => ⟨S1650000x64, .f32⟩
  | 124 => ⟨S1650000x64, .f32⟩
  | 125 => ⟨S1650000x64, .f32⟩
  | 126 => ⟨S_, .f32⟩
  | 127 => ⟨S50000x64, .f32⟩
  | _ => ⟨S50000x512, .f32⟩

abbrev hbmTy0_1 (i : Nat) : BufTy := match i % 128 with
  | 0 => ⟨S1650000x1, .i32⟩
  | 1 => ⟨S50000x64, .f32⟩
  | 2 => ⟨S_, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S50000x64, .f32⟩
  | 9 => ⟨S1650000x1, .f32⟩
  | 10 => ⟨S_, .i32⟩
  | 11 => ⟨S1650000, .i32⟩
  | 12 => ⟨S1650000, .i1⟩
  | 13 => ⟨S_, .i32⟩
  | 14 => ⟨S1650000, .i32⟩
  | 15 => ⟨S1650000, .i32⟩
  | 16 => ⟨S1650000, .i32⟩
  | 17 => ⟨S1650000x1, .i32⟩
  | 18 => ⟨S1650000x64, .f32⟩
  | 19 => ⟨S1650000x64, .f32⟩
  | 20 => ⟨S1650000x64, .f32⟩
  | 21 => ⟨S_, .f32⟩
  | 22 => ⟨S50000x64, .f32⟩
  | 23 => ⟨S1650000x1, .i32⟩
  | 24 => ⟨S50000x64, .f32⟩
  | 25 => ⟨S_, .f32⟩
  | 26 => ⟨S50000x64, .f32⟩
  | 27 => ⟨S50000x64, .f32⟩
  | 28 => ⟨S_, .f32⟩
  | 29 => ⟨S50000x64, .f32⟩
  | 30 => ⟨S50000x64, .f32⟩
  | 31 => ⟨S50000x64, .f32⟩
  | 32 => ⟨S1650000x1, .f32⟩
  | 33 => ⟨S_, .i32⟩
  | 34 => ⟨S1650000, .i32⟩
  | 35 => ⟨S1650000, .i1⟩
  | 36 => ⟨S_, .i32⟩
  | 37 => ⟨S1650000, .i32⟩
  | 38 => ⟨S1650000, .i32⟩
  | 39 => ⟨S1650000, .i32⟩
  | 40 => ⟨S1650000x1, .i32⟩
  | 41 => ⟨S1650000x64, .f32⟩
  | 42 => ⟨S1650000x64, .f32⟩
  | 43 => ⟨S1650000x64, .f32⟩
  | 44 => ⟨S_, .f32⟩
  | 45 => ⟨S50000x64, .f32⟩
  | 46 => ⟨S1650000x1, .i32⟩
  | 47 => ⟨S50000x64, .f32⟩
  | 48 => ⟨S_, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1650000x1, .f32⟩
  | 56 => ⟨S_, .i32⟩
  | 57 => ⟨S1650000, .i32⟩
  | 58 => ⟨S1650000, .i1⟩
  | 59 => ⟨S_, .i32⟩
  | 60 => ⟨S1650000, .i32⟩
  | 61 => ⟨S1650000, .i32⟩
  | 62 => ⟨S1650000, .i32⟩
  | 63 => ⟨S1650000x1, .i32⟩
  | 64 => ⟨S1650000x64, .f32⟩
  | 65 => ⟨S1650000x64, .f32⟩
  | 66 => ⟨S1650000x64, .f32⟩
  | 67 => ⟨S_, .f32⟩
  | 68 => ⟨S50000x64, .f32⟩
  | 69 => ⟨S1650000x1, .i32⟩
  | 70 => ⟨S50000x64, .f32⟩
  | 71 => ⟨S_, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S50000x64, .f32⟩
  | 78 => ⟨S1650000x1, .f32⟩
  | 79 => ⟨S_, .i32⟩
  | 80 => ⟨S1650000, .i32⟩
  | 81 => ⟨S1650000, .i1⟩
  | 82 => ⟨S_, .i32⟩
  | 83 => ⟨S1650000, .i32⟩
  | 84 => ⟨S1650000, .i32⟩
  | 85 => ⟨S1650000, .i32⟩
  | 86 => ⟨S1650000x1, .i32⟩
  | 87 => ⟨S1650000x64, .f32⟩
  | 88 => ⟨S1650000x64, .f32⟩
  | 89 => ⟨S1650000x64, .f32⟩
  | 90 => ⟨S_, .f32⟩
  | 91 => ⟨S50000x64, .f32⟩
  | 92 => ⟨S1650000x1, .i32⟩
  | 93 => ⟨S50000x64, .f32⟩
  | 94 => ⟨S_, .f32⟩
  | 95 => ⟨S50000x64, .f32⟩
  | 96 => ⟨S50000x64, .f32⟩
  | 97 => ⟨S_, .f32⟩
  | 98 => ⟨S50000x64, .f32⟩
  | 99 => ⟨S50000x64, .f32⟩
  | 100 => ⟨S50000x64, .f32⟩
  | 101 => ⟨S1650000x1, .f32⟩
  | 102 => ⟨S_, .i32⟩
  | 103 => ⟨S1650000, .i32⟩
  | 104 => ⟨S1650000, .i1⟩
  | 105 => ⟨S_, .i32⟩
  | 106 => ⟨S1650000, .i32⟩
  | 107 => ⟨S1650000, .i32⟩
  | 108 => ⟨S1650000, .i32⟩
  | 109 => ⟨S1650000x1, .i32⟩
  | 110 => ⟨S1650000x64, .f32⟩
  | 111 => ⟨S1650000x64, .f32⟩
  | 112 => ⟨S1650000x64, .f32⟩
  | 113 => ⟨S_, .f32⟩
  | 114 => ⟨S50000x64, .f32⟩
  | 115 => ⟨S1650000x1, .i32⟩
  | 116 => ⟨S50000x64, .f32⟩
  | 117 => ⟨S_, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S50000x64, .f32⟩
  | 124 => ⟨S1650000x1, .f32⟩
  | 125 => ⟨S_, .i32⟩
  | 126 => ⟨S1650000, .i32⟩
  | 127 => ⟨S1650000, .i1⟩
  | _ => ⟨S50000x512, .f32⟩

abbrev hbmTy0_2 (i : Nat) : BufTy := match i % 128 with
  | 0 => ⟨S_, .i32⟩
  | 1 => ⟨S1650000, .i32⟩
  | 2 => ⟨S1650000, .i32⟩
  | 3 => ⟨S1650000, .i32⟩
  | 4 => ⟨S1650000x1, .i32⟩
  | 5 => ⟨S1650000x64, .f32⟩
  | 6 => ⟨S1650000x64, .f32⟩
  | 7 => ⟨S1650000x64, .f32⟩
  | 8 => ⟨S_, .f32⟩
  | 9 => ⟨S50000x64, .f32⟩
  | 10 => ⟨S1650000x1, .i32⟩
  | 11 => ⟨S50000x64, .f32⟩
  | 12 => ⟨S_, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S50000x64, .f32⟩
  | 19 => ⟨S_, .f32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x64, .f32⟩
  | 26 => ⟨S50000x64, .f32⟩
  | 27 => ⟨S50000x64, .f32⟩
  | 28 => ⟨S_, .f32⟩
  | 29 => ⟨S50000, .f32⟩
  | 30 => ⟨S50000x1, .f32⟩
  | 31 => ⟨S50000x1, .f32⟩
  | 32 => ⟨S50000x64, .f32⟩
  | 33 => ⟨S50000x64, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | .local _ .vmem, ⟨0, _⟩ => ⟨S1000x512, .f32⟩
  | .local _ .vmem, ⟨1, _⟩ => ⟨S1000x512, .f32⟩
  | .local _ .vmem, ⟨2, _⟩ => ⟨S256x512, .f32⟩
  | .local _ .vmem, ⟨3, _⟩ => ⟨S64x256, .f32⟩
  | .local _ .vmem, ⟨4, _⟩ => ⟨S1000x64, .f32⟩
  | .local _ .vmem, ⟨5, _⟩ => ⟨S1000x64, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_9 : Ref sig .tc := ⟨.hbm, 61, rfl⟩
abbrev main_v44 : Ref sig .tc := ⟨.hbm, 62, rfl⟩
abbrev main_v45 : Ref sig .tc := ⟨.hbm, 63, rfl⟩
abbrev main_cst_10 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_cst_13 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_14 : Ref sig .tc := ⟨.hbm, 84, rfl⟩
abbrev main_v62 : Ref sig .tc := ⟨.hbm, 85, rfl⟩
abbrev main_v63 : Ref sig .tc := ⟨.hbm, 86, rfl⟩
abbrev main_cst_15 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_c_17 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_18 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_19 : Ref sig .tc := ⟨.hbm, 107, rfl⟩
abbrev main_v80 : Ref sig .tc := ⟨.hbm, 108, rfl⟩
abbrev main_v81 : Ref sig .tc := ⟨.hbm, 109, rfl⟩
abbrev main_cst_20 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_c_21 : Ref sig .tc := ⟨.hbm, 115, rfl⟩
abbrev main_v86 : Ref sig .tc := ⟨.hbm, 116, rfl⟩
abbrev main_v87 : Ref sig .tc := ⟨.hbm, 117, rfl⟩
abbrev main_c_22 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_23 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_cst_24 : Ref sig .tc := ⟨.hbm, 130, rfl⟩
abbrev main_v98 : Ref sig .tc := ⟨.hbm, 131, rfl⟩
abbrev main_v99 : Ref sig .tc := ⟨.hbm, 132, rfl⟩
abbrev main_cst_25 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_c_26 : Ref sig .tc := ⟨.hbm, 138, rfl⟩
abbrev main_v104 : Ref sig .tc := ⟨.hbm, 139, rfl⟩
abbrev main_v105 : Ref sig .tc := ⟨.hbm, 140, rfl⟩
abbrev main_c_27 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_cst_28 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_29 : Ref sig .tc := ⟨.hbm, 153, rfl⟩
abbrev main_v116 : Ref sig .tc := ⟨.hbm, 154, rfl⟩
abbrev main_v117 : Ref sig .tc := ⟨.hbm, 155, rfl⟩
abbrev main_cst_30 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_c_31 : Ref sig .tc := ⟨.hbm, 161, rfl⟩
abbrev main_v122 : Ref sig .tc := ⟨.hbm, 162, rfl⟩
abbrev main_v123 : Ref sig .tc := ⟨.hbm, 163, rfl⟩
abbrev main_c_32 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_cst_33 : Ref sig .tc := ⟨.hbm, 172, rfl⟩
abbrev main_v131 : Ref sig .tc := ⟨.hbm, 173, rfl⟩
abbrev main_v132 : Ref sig .tc := ⟨.hbm, 174, rfl⟩
abbrev main_v133 : Ref sig .tc := ⟨.hbm, 175, rfl⟩
abbrev main_cst_34 : Ref sig .tc := ⟨.hbm, 176, rfl⟩
abbrev main_v134 : Ref sig .tc := ⟨.hbm, 177, rfl⟩
abbrev main_v135 : Ref sig .tc := ⟨.hbm, 178, rfl⟩
abbrev main_cst_35 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_c_36 : Ref sig .tc := ⟨.hbm, 184, rfl⟩
abbrev main_v140 : Ref sig .tc := ⟨.hbm, 185, rfl⟩
abbrev main_v141 : Ref sig .tc := ⟨.hbm, 186, rfl⟩
abbrev main_c_37 : Ref sig .tc := ⟨.hbm, 187, rfl⟩
abbrev main_v142 : Ref sig .tc := ⟨.hbm, 188, rfl⟩
abbrev main_v143 : Ref sig .tc := ⟨.hbm, 189, rfl⟩
abbrev main_v144 : Ref sig .tc := ⟨.hbm, 190, rfl⟩
abbrev main_v145 : Ref sig .tc := ⟨.hbm, 191, rfl⟩
abbrev main_v146 : Ref sig .tc := ⟨.hbm, 192, rfl⟩
abbrev main_v147 : Ref sig .tc := ⟨.hbm, 193, rfl⟩
abbrev main_v148 : Ref sig .tc := ⟨.hbm, 194, rfl⟩
abbrev main_cst_38 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_cst_39 : Ref sig .tc := ⟨.hbm, 199, rfl⟩
abbrev main_v152 : Ref sig .tc := ⟨.hbm, 200, rfl⟩
abbrev main_v153 : Ref sig .tc := ⟨.hbm, 201, rfl⟩
abbrev main_cst_40 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_c_41 : Ref sig .tc := ⟨.hbm, 207, rfl⟩
abbrev main_v158 : Ref sig .tc := ⟨.hbm, 208, rfl⟩
abbrev main_v159 : Ref sig .tc := ⟨.hbm, 209, rfl⟩
abbrev main_c_42 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_cst_43 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_44 : Ref sig .tc := ⟨.hbm, 222, rfl⟩
abbrev main_v170 : Ref sig .tc := ⟨.hbm, 223, rfl⟩
abbrev main_v171 : Ref sig .tc := ⟨.hbm, 224, rfl⟩
abbrev main_cst_45 : Ref sig .tc := ⟨.hbm, 225, rfl⟩
abbrev main_v172 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_c_46 : Ref sig .tc := ⟨.hbm, 230, rfl⟩
abbrev main_v176 : Ref sig .tc := ⟨.hbm, 231, rfl⟩
abbrev main_v177 : Ref sig .tc := ⟨.hbm, 232, rfl⟩
abbrev main_c_47 : Ref sig .tc := ⟨.hbm, 233, rfl⟩
abbrev main_v178 : Ref sig .tc := ⟨.hbm, 234, rfl⟩
abbrev main_v179 : Ref sig .tc := ⟨.hbm, 235, rfl⟩
abbrev main_v180 : Ref sig .tc := ⟨.hbm, 236, rfl⟩
abbrev main_v181 : Ref sig .tc := ⟨.hbm, 237, rfl⟩
abbrev main_v182 : Ref sig .tc := ⟨.hbm, 238, rfl⟩
abbrev main_v183 : Ref sig .tc := ⟨.hbm, 239, rfl⟩
abbrev main_v184 : Ref sig .tc := ⟨.hbm, 240, rfl⟩
abbrev main_cst_48 : Ref sig .tc := ⟨.hbm, 241, rfl⟩
abbrev main_v185 : Ref sig .tc := ⟨.hbm, 242, rfl⟩
abbrev main_v186 : Ref sig .tc := ⟨.hbm, 243, rfl⟩
abbrev main_v187 : Ref sig .tc := ⟨.hbm, 244, rfl⟩
abbrev main_cst_49 : Ref sig .tc := ⟨.hbm, 245, rfl⟩
abbrev main_v188 : Ref sig .tc := ⟨.hbm, 246, rfl⟩
abbrev main_v189 : Ref sig .tc := ⟨.hbm, 247, rfl⟩
abbrev main_cst_50 : Ref sig .tc := ⟨.hbm, 248, rfl⟩
abbrev main_v190 : Ref sig .tc := ⟨.hbm, 249, rfl⟩
abbrev main_v191 : Ref sig .tc := ⟨.hbm, 250, rfl⟩
abbrev main_v192 : Ref sig .tc := ⟨.hbm, 251, rfl⟩
abbrev main_v193 : Ref sig .tc := ⟨.hbm, 252, rfl⟩
abbrev main_c_51 : Ref sig .tc := ⟨.hbm, 253, rfl⟩
abbrev main_v194 : Ref sig .tc := ⟨.hbm, 254, rfl⟩
abbrev main_v195 : Ref sig .tc := ⟨.hbm, 255, rfl⟩
abbrev main_c_52 : Ref sig .tc := ⟨.hbm, 256, rfl⟩
abbrev main_v196 : Ref sig .tc := ⟨.hbm, 257, rfl⟩
abbrev main_v197 : Ref sig .tc := ⟨.hbm, 258, rfl⟩
abbrev main_v198 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_cst_53 : Ref sig .tc := ⟨.hbm, 264, rfl⟩
abbrev main_v203 : Ref sig .tc := ⟨.hbm, 265, rfl⟩
abbrev main_v204 : Ref sig .tc := ⟨.hbm, 266, rfl⟩
abbrev main_v205 : Ref sig .tc := ⟨.hbm, 267, rfl⟩
abbrev main_cst_54 : Ref sig .tc := ⟨.hbm, 268, rfl⟩
abbrev main_v206 : Ref sig .tc := ⟨.hbm, 269, rfl⟩
abbrev main_v207 : Ref sig .tc := ⟨.hbm, 270, rfl⟩
abbrev main_cst_55 : Ref sig .tc := ⟨.hbm, 271, rfl⟩
abbrev main_v208 : Ref sig .tc := ⟨.hbm, 272, rfl⟩
abbrev main_v209 : Ref sig .tc := ⟨.hbm, 273, rfl⟩
abbrev main_v210 : Ref sig .tc := ⟨.hbm, 274, rfl⟩
abbrev main_call1_cst : Ref sig .tc := ⟨.hbm, 275, rfl⟩
abbrev main_call1_v0 : Ref sig .tc := ⟨.hbm, 276, rfl⟩
abbrev main_call1_cst_0 : Ref sig .tc := ⟨.hbm, 277, rfl⟩
abbrev main_call1_v1 : Ref sig .tc := ⟨.hbm, 278, rfl⟩
abbrev main_call1_v2 : Ref sig .tc := ⟨.hbm, 279, rfl⟩
abbrev main_call1_v3 : Ref sig .tc := ⟨.hbm, 280, rfl⟩
abbrev main_call1_v4 : Ref sig .tc := ⟨.hbm, 281, rfl⟩
abbrev main_call1_v5 : Ref sig .tc := ⟨.hbm, 282, rfl⟩
abbrev main_call1_v6 : Ref sig .tc := ⟨.hbm, 283, rfl⟩
abbrev main_call1_cst_1 : Ref sig .tc := ⟨.hbm, 284, rfl⟩
abbrev main_call1_v7 : Ref sig .tc := ⟨.hbm, 285, rfl⟩
abbrev main_call1_v8 : Ref sig .tc := ⟨.hbm, 286, rfl⟩
abbrev main_call1_v9 : Ref sig .tc := ⟨.hbm, 287, rfl⟩
abbrev main_call1_v10 : Ref sig .tc := ⟨.hbm, 288, rfl⟩
abbrev main_v211 : Ref sig .tc := ⟨.hbm, 289, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1000x512_S1000x512_0_0 : ∀ a, (![0, 0] : Fin 2 → Nat) a + S1000x512.size a ≤ S1000x512.size a
  h_S1000x512 : 0 < S1000x512.numel
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  inb_S64x256_S64x256_0_0 : ∀ a, (![0, 0] : Fin 2 → Nat) a + S64x256.size a ≤ S64x256.size a
  h_S64x256 : 0 < S64x256.numel
  inb_S1000x64_S1000x64_0_0 : ∀ a, (![0, 0] : Fin 2 → Nat) a + S1000x64.size a ≤ S1000x64.size a
  h_S1000x64 : 0 < S1000x64.numel
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S1000x512_S256x512_S1000x256_1_1_0_0_n_n_wf : DotDims.WF S1000x512 S256x512 S1000x256 [1] [1] [0] [0] [] []
  dot_S1000x256_S64x256_S1000x64_1_1_0_0_n_n_wf : DotDims.WF S1000x256 S64x256 S1000x64 [1] [1] [0] [0] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S50000x512.size a
  hwx0_0 : ∀ i : grid0.Coords, EltTy.bits .f32 = 32 ∨ (Rect.block (s := S50000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x512.size a ≤ S256x512.size a
  hwx0_1 : ∀ i : grid0.Coords, EltTy.bits .f32 = 32 ∨ (Rect.block (s := S256x512) S256x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x64.size a ≤ S50000x64.size a
  hwx0_3 : ∀ i : grid0.Coords, EltTy.bits .f32 = 32 ∨ (Rect.block (s := S50000x64) S1000x64.size (cc0_transform_3 i) (hinb0_3 i)).WholeWords (EltTy.packing .f32)

variable [Facts₀]

def dot_S1000x512_S256x512_S1000x256_1_1_0_0_n_n : DotDims S1000x512 S256x512 S1000x256 where
  lhsContracting := [1]
  rhsContracting := [1]
  lhsNonContracting := [0]
  rhsNonContracting := [0]
  lhsBatch := []
  rhsBatch := []
  wf := dot_S1000x512_S256x512_S1000x256_1_1_0_0_n_n_wf
def dot_S1000x256_S64x256_S1000x64_1_1_0_0_n_n : DotDims S1000x256 S64x256 S1000x64 where
  lhsContracting := [1]
  rhsContracting := [1]
  lhsNonContracting := [0]
  rhsNonContracting := [0]
  lhsBatch := []
  rhsBatch := []
  wf := dot_S1000x256_S64x256_S1000x64_1_1_0_0_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

abbrev win0_0 : Pipeline.Window sig grid0 :=
  Pipeline.Window.ofSpec (Memref.whole main_arg0) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S50000x512 : Shape := ⟨2, ![50000, 512]⟩
abbrev S2x1600000 : Shape := ⟨2, ![2, 1600000]⟩
abbrev S256x512 : Shape := ⟨2, ![256, 512]⟩
abbrev S64x256 : Shape := ⟨2, ![64, 256]⟩
abbrev S512x256 : Shape := ⟨2, ![512, 256]⟩
abbrev S50000x256 : Shape := ⟨2, ![50000, 256]⟩
abbrev S_ : Shape := ⟨0, ![]⟩
abbrev S256x64 : Shape := ⟨2, ![256, 64]⟩
abbrev S50000x64 : Shape := ⟨2, ![50000, 64]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S1650000x1 : Shape := ⟨2, ![1650000, 1]⟩
abbrev S1650000x64 : Shape := ⟨2, ![1650000, 64]⟩
abbrev S50000x1 : Shape := ⟨2, ![50000, 1]⟩

abbrev nBuf : Space → Nat
  | .hbm => 296
  | .vmem => 0
  | .smem => 0
  | _ => 0

abbrev hbmTy0_0 (i : Nat) : BufTy := match i % 128 with
  | 0 => ⟨S50000x512, .f32⟩
  | 1 => ⟨S2x1600000, .i32⟩
  | 2 => ⟨S256x512, .f32⟩
  | 3 => ⟨S64x256, .f32⟩
  | 4 => ⟨S512x256, .f32⟩
  | 5 => ⟨S50000x256, .f32⟩
  | 6 => ⟨S_, .f32⟩
  | 7 => ⟨S50000x256, .f32⟩
  | 8 => ⟨S50000x256, .f32⟩
  | 9 => ⟨S256x64, .f32⟩
  | 10 => ⟨S50000x64, .f32⟩
  | 11 => ⟨S50000, .i32⟩
  | 12 => ⟨S1x1600000, .i32⟩
  | 13 => ⟨S1600000, .i32⟩
  | 14 => ⟨S1650000, .i32⟩
  | 15 => ⟨S1x1600000, .i32⟩
  | 16 => ⟨S1600000, .i32⟩
  | 17 => ⟨S1650000, .i32⟩
  | 18 => ⟨S_, .f32⟩
  | 19 => ⟨S1650000, .f32⟩
  | 20 => ⟨S_, .f32⟩
  | 21 => ⟨S50000, .f32⟩
  | 22 => ⟨S1650000x1, .i32⟩
  | 23 => ⟨S50000, .f32⟩
  | 24 => ⟨S_, .f32⟩
  | 25 => ⟨S50000, .f32⟩
  | 26 => ⟨S50000, .i1⟩
  | 27 => ⟨S50000, .f32⟩
  | 28 => ⟨S_, .f32⟩
  | 29 => ⟨S_, .f32⟩
  | 30 => ⟨S50000, .f32⟩
  | 31 => ⟨S50000, .f32⟩
  | 32 => ⟨S_, .i32⟩
  | 33 => ⟨S1650000, .i32⟩
  | 34 => ⟨S1650000, .i1⟩
  | 35 => ⟨S_, .i32⟩
  | 36 => ⟨S1650000, .i32⟩
  | 37 => ⟨S1650000, .i32⟩
  | 38 => ⟨S1650000, .i32⟩
  | 39 => ⟨S1650000x1, .i32⟩
  | 40 => ⟨S1650000, .f32⟩
  | 41 => ⟨S_, .i32⟩
  | 42 => ⟨S1650000, .i32⟩
  | 43 => ⟨S1650000, .i1⟩
  | 44 => ⟨S_, .i32⟩
  | 45 => ⟨S1650000, .i32⟩
  | 46 => ⟨S1650000, .i32⟩
  | 47 => ⟨S1650000, .i32⟩
  | 48 => ⟨S1650000x1, .i32⟩
  | 49 => ⟨S1650000, .f32⟩
  | 50 => ⟨S1650000, .f32⟩
  | 51 => ⟨S1650000x1, .f32⟩
  | 52 => ⟨S_, .i32⟩
  | 53 => ⟨S1650000, .i32⟩
  | 54 => ⟨S1650000, .i1⟩
  | 55 => ⟨S_, .i32⟩
  | 56 => ⟨S1650000, .i32⟩
  | 57 => ⟨S1650000, .i32⟩
  | 58 => ⟨S1650000, .i32⟩
  | 59 => ⟨S1650000x1, .i32⟩
  | 60 => ⟨S1650000x64, .f32⟩
  | 61 => ⟨S1650000x64, .f32⟩
  | 62 => ⟨S1650000x64, .f32⟩
  | 63 => ⟨S_, .f32⟩
  | 64 => ⟨S50000x64, .f32⟩
  | 65 => ⟨S1650000x1, .i32⟩
  | 66 => ⟨S50000x64, .f32⟩
  | 67 => ⟨S_, .f32⟩
  | 68 => ⟨S50000x64, .f32⟩
  | 69 => ⟨S50000x64, .f32⟩
  | 70 => ⟨S_, .f32⟩
  | 71 => ⟨S50000x64, .f32⟩
  | 72 => ⟨S50000x64, .f32⟩
  | 73 => ⟨S50000x64, .f32⟩
  | 74 => ⟨S1650000x1, .f32⟩
  | 75 => ⟨S_, .i32⟩
  | 76 => ⟨S1650000, .i32⟩
  | 77 => ⟨S1650000, .i1⟩
  | 78 => ⟨S_, .i32⟩
  | 79 => ⟨S1650000, .i32⟩
  | 80 => ⟨S1650000, .i32⟩
  | 81 => ⟨S1650000, .i32⟩
  | 82 => ⟨S1650000x1, .i32⟩
  | 83 => ⟨S1650000x64, .f32⟩
  | 84 => ⟨S1650000x64, .f32⟩
  | 85 => ⟨S1650000x64, .f32⟩
  | 86 => ⟨S_, .f32⟩
  | 87 => ⟨S50000x64, .f32⟩
  | 88 => ⟨S1650000x1, .i32⟩
  | 89 => ⟨S50000x64, .f32⟩
  | 90 => ⟨S_, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S1650000x1, .f32⟩
  | 98 => ⟨S_, .i32⟩
  | 99 => ⟨S1650000, .i32⟩
  | 100 => ⟨S1650000, .i1⟩
  | 101 => ⟨S_, .i32⟩
  | 102 => ⟨S1650000, .i32⟩
  | 103 => ⟨S1650000, .i32⟩
  | 104 => ⟨S1650000, .i32⟩
  | 105 => ⟨S1650000x1, .i32⟩
  | 106 => ⟨S1650000x64, .f32⟩
  | 107 => ⟨S1650000x64, .f32⟩
  | 108 => ⟨S1650000x64, .f32⟩
  | 109 => ⟨S_, .f32⟩
  | 110 => ⟨S50000x64, .f32⟩
  | 111 => ⟨S1650000x1, .i32⟩
  | 112 => ⟨S50000x64, .f32⟩
  | 113 => ⟨S_, .f32⟩
  | 114 => ⟨S50000x64, .f32⟩
  | 115 => ⟨S50000x64, .f32⟩
  | 116 => ⟨S_, .f32⟩
  | 117 => ⟨S50000x64, .f32⟩
  | 118 => ⟨S50000x64, .f32⟩
  | 119 => ⟨S50000x64, .f32⟩
  | 120 => ⟨S1650000x1, .f32⟩
  | 121 => ⟨S_, .i32⟩
  | 122 => ⟨S1650000, .i32⟩
  | 123 => ⟨S1650000, .i1⟩
  | 124 => ⟨S_, .i32⟩
  | 125 => ⟨S1650000, .i32⟩
  | 126 => ⟨S1650000, .i32⟩
  | 127 => ⟨S1650000, .i32⟩
  | _ => ⟨S50000x512, .f32⟩

abbrev hbmTy0_1 (i : Nat) : BufTy := match i % 128 with
  | 0 => ⟨S1650000x1, .i32⟩
  | 1 => ⟨S1650000x64, .f32⟩
  | 2 => ⟨S1650000x64, .f32⟩
  | 3 => ⟨S1650000x64, .f32⟩
  | 4 => ⟨S_, .f32⟩
  | 5 => ⟨S50000x64, .f32⟩
  | 6 => ⟨S1650000x1, .i32⟩
  | 7 => ⟨S50000x64, .f32⟩
  | 8 => ⟨S_, .f32⟩
  | 9 => ⟨S50000x64, .f32⟩
  | 10 => ⟨S50000x64, .f32⟩
  | 11 => ⟨S_, .f32⟩
  | 12 => ⟨S50000x64, .f32⟩
  | 13 => ⟨S50000x64, .f32⟩
  | 14 => ⟨S50000x64, .f32⟩
  | 15 => ⟨S1650000x1, .f32⟩
  | 16 => ⟨S_, .i32⟩
  | 17 => ⟨S1650000, .i32⟩
  | 18 => ⟨S1650000, .i1⟩
  | 19 => ⟨S_, .i32⟩
  | 20 => ⟨S1650000, .i32⟩
  | 21 => ⟨S1650000, .i32⟩
  | 22 => ⟨S1650000, .i32⟩
  | 23 => ⟨S1650000x1, .i32⟩
  | 24 => ⟨S1650000x64, .f32⟩
  | 25 => ⟨S1650000x64, .f32⟩
  | 26 => ⟨S1650000x64, .f32⟩
  | 27 => ⟨S_, .f32⟩
  | 28 => ⟨S50000x64, .f32⟩
  | 29 => ⟨S1650000x1, .i32⟩
  | 30 => ⟨S50000x64, .f32⟩
  | 31 => ⟨S_, .f32⟩
  | 32 => ⟨S50000x64, .f32⟩
  | 33 => ⟨S50000x64, .f32⟩
  | 34 => ⟨S_, .f32⟩
  | 35 => ⟨S50000x64, .f32⟩
  | 36 => ⟨S50000x64, .f32⟩
  | 37 => ⟨S50000x64, .f32⟩
  | 38 => ⟨S1650000x1, .f32⟩
  | 39 => ⟨S_, .i32⟩
  | 40 => ⟨S1650000, .i32⟩
  | 41 => ⟨S1650000, .i1⟩
  | 42 => ⟨S_, .i32⟩
  | 43 => ⟨S1650000, .i32⟩
  | 44 => ⟨S1650000, .i32⟩
  | 45 => ⟨S1650000, .i32⟩
  | 46 => ⟨S1650000x1, .i32⟩
  | 47 => ⟨S1650000x64, .f32⟩
  | 48 => ⟨S1650000x64, .f32⟩
  | 49 => ⟨S1650000x64, .f32⟩
  | 50 => ⟨S_, .f32⟩
  | 51 => ⟨S50000x64, .f32⟩
  | 52 => ⟨S1650000x1, .i32⟩
  | 53 => ⟨S50000x64, .f32⟩
  | 54 => ⟨S_, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S1650000x1, .f32⟩
  | 62 => ⟨S_, .i32⟩
  | 63 => ⟨S1650000, .i32⟩
  | 64 => ⟨S1650000, .i1⟩
  | 65 => ⟨S_, .i32⟩
  | 66 => ⟨S1650000, .i32⟩
  | 67 => ⟨S1650000, .i32⟩
  | 68 => ⟨S1650000, .i32⟩
  | 69 => ⟨S1650000x1, .i32⟩
  | 70 => ⟨S1650000x64, .f32⟩
  | 71 => ⟨S1650000x64, .f32⟩
  | 72 => ⟨S1650000x64, .f32⟩
  | 73 => ⟨S_, .f32⟩
  | 74 => ⟨S50000x64, .f32⟩
  | 75 => ⟨S1650000x1, .i32⟩
  | 76 => ⟨S50000x64, .f32⟩
  | 77 => ⟨S_, .f32⟩
  | 78 => ⟨S50000x64, .f32⟩
  | 79 => ⟨S50000x64, .f32⟩
  | 80 => ⟨S_, .f32⟩
  | 81 => ⟨S50000x64, .f32⟩
  | 82 => ⟨S50000x64, .f32⟩
  | 83 => ⟨S50000x64, .f32⟩
  | 84 => ⟨S1650000x1, .f32⟩
  | 85 => ⟨S_, .i32⟩
  | 86 => ⟨S1650000, .i32⟩
  | 87 => ⟨S1650000, .i1⟩
  | 88 => ⟨S_, .i32⟩
  | 89 => ⟨S1650000, .i32⟩
  | 90 => ⟨S1650000, .i32⟩
  | 91 => ⟨S1650000, .i32⟩
  | 92 => ⟨S1650000x1, .i32⟩
  | 93 => ⟨S1650000x64, .f32⟩
  | 94 => ⟨S1650000x64, .f32⟩
  | 95 => ⟨S1650000x64, .f32⟩
  | 96 => ⟨S_, .f32⟩
  | 97 => ⟨S50000x64, .f32⟩
  | 98 => ⟨S1650000x1, .i32⟩
  | 99 => ⟨S50000x64, .f32⟩
  | 100 => ⟨S_, .f32⟩
  | 101 => ⟨S50000x64, .f32⟩
  | 102 => ⟨S50000x64, .f32⟩
  | 103 => ⟨S_, .f32⟩
  | 104 => ⟨S50000x64, .f32⟩
  | 105 => ⟨S50000x64, .f32⟩
  | 106 => ⟨S50000x64, .f32⟩
  | 107 => ⟨S1650000x1, .f32⟩
  | 108 => ⟨S_, .i32⟩
  | 109 => ⟨S1650000, .i32⟩
  | 110 => ⟨S1650000, .i1⟩
  | 111 => ⟨S_, .i32⟩
  | 112 => ⟨S1650000, .i32⟩
  | 113 => ⟨S1650000, .i32⟩
  | 114 => ⟨S1650000, .i32⟩
  | 115 => ⟨S1650000x1, .i32⟩
  | 116 => ⟨S1650000x64, .f32⟩
  | 117 => ⟨S1650000x64, .f32⟩
  | 118 => ⟨S1650000x64, .f32⟩
  | 119 => ⟨S_, .f32⟩
  | 120 => ⟨S50000x64, .f32⟩
  | 121 => ⟨S1650000x1, .i32⟩
  | 122 => ⟨S50000x64, .f32⟩
  | 123 => ⟨S_, .f32⟩
  | 124 => ⟨S50000x64, .f32⟩
  | 125 => ⟨S50000x64, .f32⟩
  | 126 => ⟨S_, .f32⟩
  | 127 => ⟨S50000x64, .f32⟩
  | _ => ⟨S50000x512, .f32⟩

abbrev hbmTy0_2 (i : Nat) : BufTy := match i % 128 with
  | 0 => ⟨S50000x64, .f32⟩
  | 1 => ⟨S50000x64, .f32⟩
  | 2 => ⟨S1650000x1, .f32⟩
  | 3 => ⟨S_, .i32⟩
  | 4 => ⟨S1650000, .i32⟩
  | 5 => ⟨S1650000, .i1⟩
  | 6 => ⟨S_, .i32⟩
  | 7 => ⟨S1650000, .i32⟩
  | 8 => ⟨S1650000, .i32⟩
  | 9 => ⟨S1650000, .i32⟩
  | 10 => ⟨S1650000x1, .i32⟩
  | 11 => ⟨S1650000x64, .f32⟩
  | 12 => ⟨S1650000x64, .f32⟩
  | 13 => ⟨S1650000x64, .f32⟩
  | 14 => ⟨S_, .f32⟩
  | 15 => ⟨S50000x64, .f32⟩
  | 16 => ⟨S1650000x1, .i32⟩
  | 17 => ⟨S50000x64, .f32⟩
  | 18 => ⟨S_, .f32⟩
  | 19 => ⟨S50000x64, .f32⟩
  | 20 => ⟨S50000x64, .f32⟩
  | 21 => ⟨S_, .f32⟩
  | 22 => ⟨S50000x64, .f32⟩
  | 23 => ⟨S50000x64, .f32⟩
  | 24 => ⟨S50000x64, .f32⟩
  | 25 => ⟨S_, .f32⟩
  | 26 => ⟨S50000, .f32⟩
  | 27 => ⟨S_, .f32⟩
  | 28 => ⟨S50000, .f32⟩
  | 29 => ⟨S50000, .f32⟩
  | 30 => ⟨S50000x1, .f32⟩
  | 31 => ⟨S50000x64, .f32⟩
  | 32 => ⟨S50000x64, .f32⟩
  | 33 => ⟨S50000x64, .f32⟩
  | 34 => ⟨S_, .f32⟩
  | 35 => ⟨S50000, .f32⟩
  | 36 => ⟨S50000x1, .f32⟩
  | 37 => ⟨S50000x1, .f32⟩
  | 38 => ⟨S50000x64, .f32⟩
  | 39 => ⟨S50000x64, .f32⟩
  | _ => ⟨S50000x512, .f32⟩

abbrev hbmTy (i : Nat) : BufTy := match i / 128 with
  | 0 => hbmTy0_0 i
  | 1 => hbmTy0_1 i
  | 2 => hbmTy0_2 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v19 : Ref sig .tc := ⟨.hbm, 31, rfl⟩
abbrev main_c : Ref sig .tc := ⟨.hbm, 32, rfl⟩
abbrev main_v20 : Ref sig .tc := ⟨.hbm, 33, rfl⟩
abbrev main_v21 : Ref sig .tc := ⟨.hbm, 34, rfl⟩
abbrev main_c_3 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_c_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_c_6 : Ref sig .tc := ⟨.hbm, 52, rfl⟩
abbrev main_v36 : Ref sig .tc := ⟨.hbm, 53, rfl⟩
abbrev main_v37 : Ref sig .tc := ⟨.hbm, 54, rfl⟩
abbrev main_c_7 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_9 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_11 : Ref sig .tc := ⟨.hbm, 75, rfl⟩
abbrev main_v54 : Ref sig .tc := ⟨.hbm, 76, rfl⟩
abbrev main_v55 : Ref sig .tc := ⟨.hbm, 77, rfl⟩
abbrev main_c_12 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_cst_14 : Ref sig .tc := ⟨.hbm, 90, rfl⟩
abbrev main_v66 : Ref sig .tc := ⟨.hbm, 91, rfl⟩
abbrev main_v67 : Ref sig .tc := ⟨.hbm, 92, rfl⟩
abbrev main_cst_15 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_c_16 : Ref sig .tc := ⟨.hbm, 98, rfl⟩
abbrev main_v72 : Ref sig .tc := ⟨.hbm, 99, rfl⟩
abbrev main_v73 : Ref sig .tc := ⟨.hbm, 100, rfl⟩
abbrev main_c_17 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_18 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_cst_19 : Ref sig .tc := ⟨.hbm, 113, rfl⟩
abbrev main_v84 : Ref sig .tc := ⟨.hbm, 114, rfl⟩
abbrev main_v85 : Ref sig .tc := ⟨.hbm, 115, rfl⟩
abbrev main_cst_20 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_c_21 : Ref sig .tc := ⟨.hbm, 121, rfl⟩
abbrev main_v90 : Ref sig .tc := ⟨.hbm, 122, rfl⟩
abbrev main_v91 : Ref sig .tc := ⟨.hbm, 123, rfl⟩
abbrev main_c_22 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_cst_23 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_24 : Ref sig .tc := ⟨.hbm, 136, rfl⟩
abbrev main_v102 : Ref sig .tc := ⟨.hbm, 137, rfl⟩
abbrev main_v103 : Ref sig .tc := ⟨.hbm, 138, rfl⟩
abbrev main_cst_25 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_c_26 : Ref sig .tc := ⟨.hbm, 144, rfl⟩
abbrev main_v108 : Ref sig .tc := ⟨.hbm, 145, rfl⟩
abbrev main_v109 : Ref sig .tc := ⟨.hbm, 146, rfl⟩
abbrev main_c_27 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_cst_28 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_cst_29 : Ref sig .tc := ⟨.hbm, 159, rfl⟩
abbrev main_v120 : Ref sig .tc := ⟨.hbm, 160, rfl⟩
abbrev main_v121 : Ref sig .tc := ⟨.hbm, 161, rfl⟩
abbrev main_cst_30 : Ref sig .tc := ⟨.hbm, 162, rfl⟩
abbrev main_v122 : Ref sig .tc := ⟨.hbm, 163, rfl⟩
abbrev main_v123 : Ref sig .tc := ⟨.hbm, 164, rfl⟩
abbrev main_v124 : Ref sig .tc := ⟨.hbm, 165, rfl⟩
abbrev main_v125 : Ref sig .tc := ⟨.hbm, 166, rfl⟩
abbrev main_c_31 : Ref sig .tc := ⟨.hbm, 167, rfl⟩
abbrev main_v126 : Ref sig .tc := ⟨.hbm, 168, rfl⟩
abbrev main_v127 : Ref sig .tc := ⟨.hbm, 169, rfl⟩
abbrev main_c_32 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_cst_33 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_cst_34 : Ref sig .tc := ⟨.hbm, 182, rfl⟩
abbrev main_v138 : Ref sig .tc := ⟨.hbm, 183, rfl⟩
abbrev main_v139 : Ref sig .tc := ⟨.hbm, 184, rfl⟩
abbrev main_cst_35 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_c_36 : Ref sig .tc := ⟨.hbm, 190, rfl⟩
abbrev main_v144 : Ref sig .tc := ⟨.hbm, 191, rfl⟩
abbrev main_v145 : Ref sig .tc := ⟨.hbm, 192, rfl⟩
abbrev main_c_37 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_cst_38 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_39 : Ref sig .tc := ⟨.hbm, 205, rfl⟩
abbrev main_v156 : Ref sig .tc := ⟨.hbm, 206, rfl⟩
abbrev main_v157 : Ref sig .tc := ⟨.hbm, 207, rfl⟩
abbrev main_cst_40 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_c_41 : Ref sig .tc := ⟨.hbm, 213, rfl⟩
abbrev main_v162 : Ref sig .tc := ⟨.hbm, 214, rfl⟩
abbrev main_v163 : Ref sig .tc := ⟨.hbm, 215, rfl⟩
abbrev main_c_42 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_cst_43 : Ref sig .tc := ⟨.hbm, 224, rfl⟩
abbrev main_v171 : Ref sig .tc := ⟨.hbm, 225, rfl⟩
abbrev main_v172 : Ref sig .tc := ⟨.hbm, 226, rfl⟩
abbrev main_v173 : Ref sig .tc := ⟨.hbm, 227, rfl⟩
abbrev main_cst_44 : Ref sig .tc := ⟨.hbm, 228, rfl⟩
abbrev main_v174 : Ref sig .tc := ⟨.hbm, 229, rfl⟩
abbrev main_v175 : Ref sig .tc := ⟨.hbm, 230, rfl⟩
abbrev main_cst_45 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_v179 : Ref sig .tc := ⟨.hbm, 235, rfl⟩
abbrev main_c_46 : Ref sig .tc := ⟨.hbm, 236, rfl⟩
abbrev main_v180 : Ref sig .tc := ⟨.hbm, 237, rfl⟩
abbrev main_v181 : Ref sig .tc := ⟨.hbm, 238, rfl⟩
abbrev main_c_47 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_cst_48 : Ref sig .tc := ⟨.hbm, 247, rfl⟩
abbrev main_v189 : Ref sig .tc := ⟨.hbm, 248, rfl⟩
abbrev main_v190 : Ref sig .tc := ⟨.hbm, 249, rfl⟩
abbrev main_v191 : Ref sig .tc := ⟨.hbm, 250, rfl⟩
abbrev main_cst_49 : Ref sig .tc := ⟨.hbm, 251, rfl⟩
abbrev main_v192 : Ref sig .tc := ⟨.hbm, 252, rfl⟩
abbrev main_v193 : Ref sig .tc := ⟨.hbm, 253, rfl⟩
abbrev main_cst_50 : Ref sig .tc := ⟨.hbm, 254, rfl⟩
abbrev main_v194 : Ref sig .tc := ⟨.hbm, 255, rfl⟩
abbrev main_v195 : Ref sig .tc := ⟨.hbm, 256, rfl⟩
abbrev main_v196 : Ref sig .tc := ⟨.hbm, 257, rfl⟩
abbrev main_v197 : Ref sig .tc := ⟨.hbm, 258, rfl⟩
abbrev main_c_51 : Ref sig .tc := ⟨.hbm, 259, rfl⟩
abbrev main_v198 : Ref sig .tc := ⟨.hbm, 260, rfl⟩
abbrev main_v199 : Ref sig .tc := ⟨.hbm, 261, rfl⟩
abbrev main_c_52 : Ref sig .tc := ⟨.hbm, 262, rfl⟩
abbrev main_v200 : Ref sig .tc := ⟨.hbm, 263, rfl⟩
abbrev main_v201 : Ref sig .tc := ⟨.hbm, 264, rfl⟩
abbrev main_v202 : Ref sig .tc := ⟨.hbm, 265, rfl⟩
abbrev main_v203 : Ref sig .tc := ⟨.hbm, 266, rfl⟩
abbrev main_v204 : Ref sig .tc := ⟨.hbm, 267, rfl⟩
abbrev main_v205 : Ref sig .tc := ⟨.hbm, 268, rfl⟩
abbrev main_v206 : Ref sig .tc := ⟨.hbm, 269, rfl⟩
abbrev main_cst_53 : Ref sig .tc := ⟨.hbm, 270, rfl⟩
abbrev main_v207 : Ref sig .tc := ⟨.hbm, 271, rfl⟩
abbrev main_v208 : Ref sig .tc := ⟨.hbm, 272, rfl⟩
abbrev main_v209 : Ref sig .tc := ⟨.hbm, 273, rfl⟩
abbrev main_cst_54 : Ref sig .tc := ⟨.hbm, 274, rfl⟩
abbrev main_v210 : Ref sig .tc := ⟨.hbm, 275, rfl⟩
abbrev main_v211 : Ref sig .tc := ⟨.hbm, 276, rfl⟩
abbrev main_cst_55 : Ref sig .tc := ⟨.hbm, 277, rfl⟩
abbrev main_v212 : Ref sig .tc := ⟨.hbm, 278, rfl⟩
abbrev main_v213 : Ref sig .tc := ⟨.hbm, 279, rfl⟩
abbrev main_v214 : Ref sig .tc := ⟨.hbm, 280, rfl⟩
abbrev main_call2_cst : Ref sig .tc := ⟨.hbm, 281, rfl⟩
abbrev main_call2_v0 : Ref sig .tc := ⟨.hbm, 282, rfl⟩
abbrev main_call2_cst_0 : Ref sig .tc := ⟨.hbm, 283, rfl⟩
abbrev main_call2_v1 : Ref sig .tc := ⟨.hbm, 284, rfl⟩
abbrev main_call2_v2 : Ref sig .tc := ⟨.hbm, 285, rfl⟩
abbrev main_call2_v3 : Ref sig .tc := ⟨.hbm, 286, rfl⟩
abbrev main_call2_v4 : Ref sig .tc := ⟨.hbm, 287, rfl⟩
abbrev main_call2_v5 : Ref sig .tc := ⟨.hbm, 288, rfl⟩
abbrev main_call2_v6 : Ref sig .tc := ⟨.hbm, 289, rfl⟩
abbrev main_call2_cst_1 : Ref sig .tc := ⟨.hbm, 290, rfl⟩
abbrev main_call2_v7 : Ref sig .tc := ⟨.hbm, 291, rfl⟩
abbrev main_call2_v8 : Ref sig .tc := ⟨.hbm, 292, rfl⟩
abbrev main_call2_v9 : Ref sig .tc := ⟨.hbm, 293, rfl⟩
abbrev main_call2_v10 : Ref sig .tc := ⟨.hbm, 294, rfl⟩
abbrev main_v215 : Ref sig .tc := ⟨.hbm, 295, rfl⟩

abbrev nD : Nat := 1
abbrev τ : Topo := Topo.v7x

variable {F : FTy → Type} [FloatOps F]

class Facts₀ : Prop where
  transposes_S256x512_S512x256_1_0 : S256x512.Transposes [1, 0] S512x256
  bcast_S_S50000x256 : S_.BroadcastsInDim S50000x256 (![] : Fin 0 → Fin S50000x256.rank)
  transposes_S64x256_S256x64_1_0 : S64x256.Transposes [1, 0] S256x64
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x64_0_1 : S1650000x1.BroadcastsInDim S1650000x64 (![0, 1] : Fin 2 → Fin S1650000x64.rank)
  bcast_S_S50000x64 : S_.BroadcastsInDim S50000x64 (![] : Fin 0 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x512_S512x256_S50000x256_1_0_0_1_n_n_wf : DotDims.WF S50000x512 S512x256 S50000x256 [1] [0] [0] [1] [] []
  dot_S50000x256_S256x64_S50000x64_1_0_0_1_n_n_wf : DotDims.WF S50000x256 S256x64 S50000x64 [1] [0] [0] [1] [] []
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  gather_S50000x64_S1650000x1_S1650000x64_1_0_n_n_0_1_164_wf : GatherDims.WF S50000x64 S1650000x1 S1650000x64 [1] [0] [] [0] [] 1 ![1, 64]
  scatter_S50000x64_S1650000x1_S1650000x64_1_0_0_1_wf : ScatterDims.WF S50000x64 S1650000x1 S1650000x64 [1] [0] [0] 1

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def dot_S50000x256_S256x64_S50000x64_1_0_0_1_n_n : DotDims S50000x256 S256x64 S50000x64 where
  lhsContracting := [1]
  rhsContracting := [0]
  lhsNonContracting := [0]
  rhsNonContracting := [1]
  lhsBatch := []
  rhsBatch := []
  wf := dot_S50000x256_S256x64_S50000x64_1_0_0_1_n_n_wf
def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def gather_S50000x64_S1650000x1_S1650000x64_1_0_n_n_0_1_164 : GatherDims S50000x64 S1650000x1 S1650000x64 where
  offsetDims := [1]
  collapsedSliceDims := [0]
  operandBatchingDims := []
  startIndicesBatchingDims := []
  startIndexMap := [0]
  indexVectorDim := 1
  sliceSizes := ![1, 64]
  wf := gather_S50000x64_S1650000x1_S1650000x64_1_0_n_n_0_1_164_wf
def scatter_S50000x64_S1650000x1_S1650000x64_1_0_0_1 : ScatterDims S50000x64 S1650000x1 S1650000x64 where
  updateWindowDims := [1]
  insertedWindowDims := [0]
  scatterDimsToOperandDims := [0]
  indexVectorDim := 1
  wf := scatter_S50000x64_S1650000x1_S1650000x64_1_0_0_1_wf

class Facts : Prop extends Facts₀ where

variable [Facts]
-- ==== Proof.KBody.lean ====
/-
  The one region of the program: the fused encoder  out = relu(x · W1ᵀ) · W2ᵀ  over 50 row blocks of 1000 rows.
  At a grid point the body loads the row block of x and the two (whole) weight matrices, and stores one value into the
  output block: the product of relu(product) — the skeleton's payload. This module states what each window's staging
  buffer holds after the body (an input its block, the output the payload of the three input blocks), proves the body's
  triple, and packs the proof data the launch theorem asks for.
-/
import proofs.«146477_j24300924961369_1_alg».proof.Proof.Gen.Kernel.Launch
import proofs.«146477_j24300924961369_1_alg».proof.Proof.Gen.Kernel.Skeleton
import proofs.«146477_j24300924961369_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: no host operation comes before the region, so they are the
    launch contents (the fold of the empty list of operations). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (an unfetched window's block
    index has not moved): the row block of x, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the first weight matrix (fetched once, at the first point), -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the second (likewise). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The whole rectangles the body loads and stores through. -/
abbrev rX : Rect S1000x512 := Rect.unit (s := S1000x512) ![0, 0] S1000x512.size inb_S1000x512_S1000x512_0_0
abbrev rW1 : Rect S256x512 := Rect.unit (s := S256x512) ![0, 0] S256x512.size inb_S256x512_S256x512_0_0
abbrev rW2 : Rect S64x256 := Rect.unit (s := S64x256) ![0, 0] S64x256.size inb_S64x256_S64x256_0_0
abbrev rO : Rect S1000x64 := Rect.unit (s := S1000x64) ![0, 0] S1000x64.size inb_S1000x64_S1000x64_0_0

/-- The output block after the body, from the three input blocks: its one store, of the payload
    relu(x · W1ᵀ) · W2ᵀ of the loaded blocks, through the whole rectangle. -/
def outBlock (x0 : Vec F S1000x512 .f32) (x1 : Vec F S256x512 .f32) (x2 : Vec F S64x256 .f32) : Vec F S1000x64 .f32 :=
  View.canon [⟨rO, k0_pay1 (View.ld x0 rX) (View.ld x1 rW1) (View.ld x2 rW2)⟩]

/-- The one store covers the block. -/
theorem coverO (p0 : Vec F S1000x64 .f32) (y : S1000x64.Idx) :
    ∃ pc ∈ ([⟨rO, p0⟩] : List (View.Piece (Elt F) S1000x64 .f32)), y ∈ pc.1.set :=
  View.cover_of_tiled [⟨rO, p0⟩] S1000x64.size (by rfl) y

/-! ## The body's triple -/

set_option maxHeartbeats 1000000 in
/-- The body on whole staging memrefs, the inputs' at read contents and the output's at anything, runs to the
    continuation holding the inputs' as they were and the output's at `outBlock` of the inputs'. -/
theorem sound_kernel (c : Dev nD) (E : Set ℕ) (i : grid0.Coords) (arg1 : Memref sig .tc .vmem S1000x512 .f32) (harg1 : arg1.IsWhole)
    (arg2 : Memref sig .tc .vmem S256x512 .f32) (harg2 : arg2.IsWhole) (arg3 : Memref sig .tc .vmem S64x256 .f32) (harg3 : arg3.IsWhole)
    (arg4 : Memref sig .tc .vmem S1000x64 .f32) (harg4 : arg4.IsWhole)
    (x0 : Vec F S1000x512 .f32) (x1 : Vec F S256x512 .f32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data -/

/-- The proof data of the pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the core's
    owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KTail.lean ====
/-
  The whole program around its one region: the region comes first, and every later line is a host operation (the
  degree normalisation, ten rounds of gather / scale / scatter-add / blend, the closing log-softmax). None of those
  lines allocates, none writes an argument or the region's output array, and each touches unscoped TensorCore buffers
  only; so the run is the region's run continued by the fold of the later lines over the region's exit contents.
  From it: the frame (the four arguments end as launched) and the result buffer's contents as that fold.
-/
import proofs.«146477_j24300924961369_1_alg».proof.Proof.KBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines after the region -/

/-- The host operations after the region, in the stretches the program is printed in. -/
abbrev tailOpss : List (List (HloOp τ sig (Elt F))) :=
  [main_part0_ops0, main_part0_ops1, main_part0_ops2, main_part1_ops0, main_part2_ops0, main_part3_ops0, main_part4_ops0, main_part4_ops1]

/-- An operation keeps the four arguments and the region's output array: it writes none of them. -/
def Keeps (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_v0 ∉ op.writes

theorem main_part0_ops0_fresh : (main_part0_ops0 : List (HloOp τ sig (Elt F))).Forall fun op => op.fresh = ∅ := by
  simp only [List.Forall]; repeat' constructor
set_option maxHeartbeats 4000000 in
/-- Each operation of the stretch writes its own result buffer only, which is no argument and not the region's output. -/
theorem main_part0_ops0_keeps : (main_part0_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part0_ops1_fresh : (main_part0_ops1 : List (HloOp τ sig (Elt F))).Forall fun op => op.fresh = ∅ := by
  simp only [List.Forall]; repeat' constructor
set_option maxHeartbeats 4000000 in
/-- Each operation of the stretch writes its own result buffer only, which is no argument and not the region's output. -/
theorem main_part0_ops1_keeps : (main_part0_ops1 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part0_ops2_fresh : (main_part0_ops2 : List (HloOp τ sig (Elt F))).Forall fun op => op.fresh = ∅ := by
  simp only [List.Forall]; repeat' constructor
set_option maxHeartbeats 4000000 in
/-- Each operation of the stretch writes its own result buffer only, which is no argument and not the region's output. -/
theorem main_part0_ops2_keeps : (main_part0_ops2 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part1_ops0_fresh : (main_part1_ops0 : List (HloOp τ sig (Elt F))).Forall fun op => op.fresh = ∅ := by
  simp only [List.Forall]; repeat' constructor
set_option maxHeartbeats 4000000 in
/-- Each operation of the stretch writes its own result buffer only, which is no argument and not the region's output. -/
theorem main_part1_ops0_keeps : (main_part1_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part2_ops0_fresh : (main_part2_ops0 : List (HloOp τ sig (Elt F))).Forall fun op => op.fresh = ∅ := by
  simp only [List.Forall]; repeat' constructor
set_option maxHeartbeats 4000000 in
/-- Each operation of the stretch writes its own result buffer only, which is no argument and not the region's output. -/
theorem main_part2_ops0_keeps : (main_part2_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part3_ops0_fresh : (main_part3_ops0 : List (HloOp τ sig (Elt F))).Forall fun op => op.fresh = ∅ := by
  simp only [List.Forall]; repeat' constructor
set_option maxHeartbeats 4000000 in
/-- Each operation of the stretch writes its own result buffer only, which is no argument and not the region's output. -/
theorem main_part3_ops0_keeps : (main_part3_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part4_ops0_fresh : (main_part4_ops0 : List (HloOp τ sig (Elt F))).Forall fun op => op.fresh = ∅ := by
  simp only [List.Forall]; repeat' constructor
set_option maxHeartbeats 4000000 in
/-- Each operation of the stretch writes its own result buffer only, which is no argument and not the region's output. -/
theorem main_part4_ops0_keeps : (main_part4_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part4_ops1_fresh : (main_part4_ops1 : List (HloOp τ sig (Elt F))).Forall fun op => op.fresh = ∅ := by
  simp only [List.Forall]; repeat' constructor
set_option maxHeartbeats 4000000 in
/-- Each operation of the stretch writes its own result buffer only, which is no argument and not the region's output. -/
theorem main_part4_ops1_keeps : (main_part4_ops1 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_sub : ∀ ops ∈ (tailOpss : List (List (HloOp τ sig (Elt F)))), ∀ op ∈ ops, op.bufs ⊆ StableHlo.tcRefs τ sig := by
  intro ops hops
  simp only [List.mem_cons, List.mem_nil_iff, or_false] at hops
  rcases hops with rfl | rfl | rfl | rfl | rfl | rfl | rfl | rfl
  · exact List.forall_iff_forall_mem.mp main_part0_ops0_sub
  · exact List.forall_iff_forall_mem.mp main_part0_ops1_sub
  · exact List.forall_iff_forall_mem.mp main_part0_ops2_sub
  · exact List.forall_iff_forall_mem.mp main_part1_ops0_sub
  · exact List.forall_iff_forall_mem.mp main_part2_ops0_sub
  · exact List.forall_iff_forall_mem.mp main_part3_ops0_sub
  · exact List.forall_iff_forall_mem.mp main_part4_ops0_sub
  · exact List.forall_iff_forall_mem.mp main_part4_ops1_sub

theorem tail_fresh : ∀ ops ∈ (tailOpss : List (List (HloOp τ sig (Elt F)))), ∀ op ∈ ops, op.fresh = ∅ := by
  intro ops hops
  simp only [List.mem_cons, List.mem_nil_iff, or_false] at hops
  rcases hops with rfl | rfl | rfl | rfl | rfl | rfl | rfl | rfl
  · exact List.forall_iff_forall_mem.mp main_part0_ops0_fresh
  · exact List.forall_iff_forall_mem.mp main_part0_ops1_fresh
  · exact List.forall_iff_forall_mem.mp main_part0_ops2_fresh
  · exact List.forall_iff_forall_mem.mp main_part1_ops0_fresh
  · exact List.forall_iff_forall_mem.mp main_part2_ops0_fresh
  · exact List.forall_iff_forall_mem.mp main_part3_ops0_fresh
  · exact List.forall_iff_forall_mem.mp main_part4_ops0_fresh
  · exact List.forall_iff_forall_mem.mp main_part4_ops1_fresh

theorem tail_keeps : ∀ ops ∈ (tailOpss : List (List (HloOp τ sig (Elt F)))), ∀ op ∈ ops, Keeps op := by
  intro ops hops
  simp only [List.mem_cons, List.mem_nil_iff, or_false] at hops
  rcases hops with rfl | rfl | rfl | rfl | rfl | rfl | rfl | rfl
  · exact List.forall_iff_forall_mem.mp main_part0_ops0_keeps
  · exact List.forall_iff_forall_mem.mp main_part0_ops1_keeps
  · exact List.forall_iff_forall_mem.mp main_part0_ops2_keeps
  · exact List.forall_iff_forall_mem.mp main_part1_ops0_keeps
  · exact List.forall_iff_forall_mem.mp main_part2_ops0_keeps
  · exact List.forall_iff_forall_mem.mp main_part3_ops0_keeps
  · exact List.forall_iff_forall_mem.mp main_part4_ops0_keeps
  · exact List.forall_iff_forall_mem.mp main_part4_ops1_keeps

theorem tail_keeps_flat : ∀ op ∈ (tailOpss : List (List (HloOp τ sig (Elt F)))).flatten, Keeps op := by
  intro op hop
  obtain ⟨ops, hops, h⟩ := List.mem_flatten.mp hop
  exact tail_keeps ops hops op h

/-- @main around the region: nothing before it, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [] tailOpss trivial trivial main_chain_windows

/-- The later lines touch the pipeline's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_sub ops hops op hop)

/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop w
  have h := tail_keeps ops hops op hop
  fin_cases w
  · exact h.1
  · exact h.2.2.1
  · exact h.2.2.2.1
  · exact h.2.2.2.2

/-! ## The run -/

set_option backward.isDefEq.respectTransparency.types false in
/-- Every weakly fair execution of @main terminates, every array of the pipeline ends at what the proof data computes and
    every other unscoped buffer as the later lines leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := tail_fresh) (hkeep := sfx_keeps)
    (hmain := hmain m Variants.none) (hA := A_eq m) (hΦ := fun _ _ => rfl)

/-- A buffer the later lines do not write, and no window stages, ends as launched. -/
theorem tail_of_kept (c : Dev nD) (b : Ref sig .tc)
    (hk : ∀ op ∈ (tailOpss : List (List (HloOp τ sig (Elt F)))).flatten, Proc.devRef (τ := τ) .tc b ∉ op.writes)
    (hb : ∀ w, Pipeline.arrRef spec0 w ≠ b) :
    Pipeline.afterTail₀ cfgs (dats m) 0 (V0 m) tailOpss c b = m ((c : Thread nD τ).loc b) := by
  unfold Pipeline.afterTail₀
  rw [StableHlo.after_of_forall_not_mem (b := Proc.devRef .tc b) _ _ hk, Pipeline.withArrays_of_ne _ c (V0 m c) _ b hb]
  rfl

/-- The run, read at the result buffer and the arguments: the result is the later lines' fold over the region's exit
    contents, read at the result buffer; the arguments end as launched (an argument a window stages by the proof
    data — an input's array is never written back —, the edge list because no line writes it). -/
theorem run_result : θ_run defs (onTc (τ := τ) (main (F := F))) ⟨m, fun _ => 0, ρ⟩ (fun r => ∀ c : Dev nD,
      r.2.mem ((c.tc : Thread nD τ).loc main_v211) = Pipeline.afterTail₀ cfgs (dats m) 0 (V0 m) tailOpss c main_v211
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v211 (Pipeline.mem_restRefs_of main_v211 (by decide) (by decide)),
      ((h c).1 0).trans (((dats m 0 c).arrAt_in 0 rfl _).trans ((A_eq m c 0).trans rfl)),
      ((h c).2 main_arg1 (Pipeline.mem_restRefs_of main_arg1 (by decide) (by decide))).trans
        (tail_of_kept m c main_arg1 (fun op hop => (tail_keeps_flat op hop).2.1) (by decide)),
      ((h c).1 1).trans (((dats m 0 c).arrAt_in 1 rfl _).trans ((A_eq m c 1).trans rfl)),
      ((h c).1 2).trans (((dats m 0 c).arrAt_in 2 rfl _).trans ((A_eq m c 2).trans rfl))⟩) (run_main m ρ)

/-- The frame: the run, the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.Kernel.Hand

end
-- ==== Proof.KiBody.lean ====
/-
  The one region of the program: the fused encoder  out = relu(x · W1ᵀ) · W2ᵀ  over 50 row blocks of 1000 rows.
  At a grid point the body loads the row block of x and the two (whole) weight matrices, and stores one value into the
  output block: the product of relu(product) — the skeleton's payload. This module states what each window's staging
  buffer holds after the body (an input its block, the output the payload of the three input blocks), proves the body's
  triple, and packs the proof data the launch theorem asks for.
-/
import proofs.«146477_j24300924961369_1_alg».proof.Proof.Gen.KernelIdeal.Launch
import proofs.«146477_j24300924961369_1_alg».proof.Proof.Gen.KernelIdeal.Skeleton
import proofs.«146477_j24300924961369_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffer contents when the region is entered: no host operation comes before the region, so they are the
    launch contents (the fold of the empty list of operations). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not (an unfetched window's block
    index has not moved): the row block of x, -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- the first weight matrix (fetched once, at the first point), -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- and the second (likewise). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output block -/

/-- The whole rectangles the body loads and stores through. -/
abbrev rX : Rect S1000x512 := Rect.unit (s := S1000x512) ![0, 0] S1000x512.size inb_S1000x512_S1000x512_0_0
abbrev rW1 : Rect S256x512 := Rect.unit (s := S256x512) ![0, 0] S256x512.size inb_S256x512_S256x512_0_0
abbrev rW2 : Rect S64x256 := Rect.unit (s := S64x256) ![0, 0] S64x256.size inb_S64x256_S64x256_0_0
abbrev rO : Rect S1000x64 := Rect.unit (s := S1000x64) ![0, 0] S1000x64.size inb_S1000x64_S1000x64_0_0

/-- The output block after the body, from the three input blocks: its one store, of the payload
    relu(x · W1ᵀ) · W2ᵀ of the loaded blocks, through the whole rectangle. -/
def outBlock (x0 : Vec F S1000x512 .f32) (x1 : Vec F S256x512 .f32) (x2 : Vec F S64x256 .f32) : Vec F S1000x64 .f32 :=
  View.canon [⟨rO, k0_pay1 (View.ld x0 rX) (View.ld x1 rW1) (View.ld x2 rW2)⟩]

/-- The one store covers the block. -/
theorem coverO (p0 : Vec F S1000x64 .f32) (y : S1000x64.Idx) :
    ∃ pc ∈ ([⟨rO, p0⟩] : List (View.Piece (Elt F) S1000x64 .f32)), y ∈ pc.1.set :=
  View.cover_of_tiled [⟨rO, p0⟩] S1000x64.size (by rfl) y

/-! ## The body's triple -/

set_option maxHeartbeats 1000000 in
/-- The body on whole staging memrefs, the inputs' at read contents and the output's at anything, runs to the
    continuation holding the inputs' as they were and the output's at `outBlock` of the inputs'. -/
theorem sound_kernel (c : Dev nD) (E : Set ℕ) (i : grid0.Coords) (arg1 : Memref sig .tc .vmem S1000x512 .f32) (harg1 : arg1.IsWhole)
    (arg2 : Memref sig .tc .vmem S256x512 .f32) (harg2 : arg2.IsWhole) (arg3 : Memref sig .tc .vmem S64x256 .f32) (harg3 : arg3.IsWhole)
    (arg4 : Memref sig .tc .vmem S1000x64 .f32) (harg4 : arg4.IsWhole)
    (x0 : Vec F S1000x512 .f32) (x1 : Vec F S256x512 .f32) (x2 : Vec F S64x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (outBlock x0 x1 x2)) -∗ K ⟨⟩))
      ⊢ wp frame (wpE (defs₀ (F := F)) Variants.none c none) E (cc0__mlp_kernel i arg1 harg1 arg2 harg2 arg3 harg3 arg4 harg4) K := by
  simp only [cc0__mlp_kernel_eq_skeleton]; unfold cc0__mlp_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverO _)

/-! ## The proof data -/

/-- The proof data of the pipeline on core `c`: the arrays as the region finds them; after the body at point `t` each
    input's buffer at its block and the output's at `outBlock` of the input blocks; the invariant the scoped rest and the
    generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so `sound_kernel` applies; the invariant and the core's
    owed signals pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KiTail.lean ====
/-
  The whole program around its one region: the region comes first, and every later line is a host operation (the
  degree normalisation, ten rounds of gather / scale / scatter-add / blend, the closing log-softmax). None of those
  lines allocates, none writes an argument or the region's output array, and each touches unscoped TensorCore buffers
  only; so the run is the region's run continued by the fold of the later lines over the region's exit contents.
  From it: the frame (the four arguments end as launched) and the result buffer's contents as that fold.
-/
import proofs.«146477_j24300924961369_1_alg».proof.Proof.KiBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The lines after the region -/

/-- The host operations after the region, in the stretches the program is printed in. -/
abbrev tailOpss : List (List (HloOp τ sig (Elt F))) :=
  [main_part0_ops0, main_part0_ops1, main_part0_ops2, main_part1_ops0, main_part2_ops0, main_part3_ops0, main_part4_ops0, main_part4_ops1]

/-- An operation keeps the four arguments and the region's output array: it writes none of them. -/
def Keeps (op : HloOp τ sig (Elt F)) : Prop :=
  Proc.devRef (τ := τ) .tc main_arg0 ∉ op.writes ∧ Proc.devRef (τ := τ) .tc main_arg1 ∉ op.writes
    ∧ Proc.devRef (τ := τ) .tc main_arg2 ∉ op.writes ∧ Proc.devRef (τ := τ) .tc main_arg3 ∉ op.writes
    ∧ Proc.devRef (τ := τ) .tc main_v0 ∉ op.writes

theorem main_part0_ops0_fresh : (main_part0_ops0 : List (HloOp τ sig (Elt F))).Forall fun op => op.fresh = ∅ := by
  simp only [List.Forall]; repeat' constructor
set_option maxHeartbeats 4000000 in
/-- Each operation of the stretch writes its own result buffer only, which is no argument and not the region's output. -/
theorem main_part0_ops0_keeps : (main_part0_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part0_ops1_fresh : (main_part0_ops1 : List (HloOp τ sig (Elt F))).Forall fun op => op.fresh = ∅ := by
  simp only [List.Forall]; repeat' constructor
set_option maxHeartbeats 4000000 in
/-- Each operation of the stretch writes its own result buffer only, which is no argument and not the region's output. -/
theorem main_part0_ops1_keeps : (main_part0_ops1 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part0_ops2_fresh : (main_part0_ops2 : List (HloOp τ sig (Elt F))).Forall fun op => op.fresh = ∅ := by
  simp only [List.Forall]; repeat' constructor
set_option maxHeartbeats 4000000 in
/-- Each operation of the stretch writes its own result buffer only, which is no argument and not the region's output. -/
theorem main_part0_ops2_keeps : (main_part0_ops2 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part1_ops0_fresh : (main_part1_ops0 : List (HloOp τ sig (Elt F))).Forall fun op => op.fresh = ∅ := by
  simp only [List.Forall]; repeat' constructor
set_option maxHeartbeats 4000000 in
/-- Each operation of the stretch writes its own result buffer only, which is no argument and not the region's output. -/
theorem main_part1_ops0_keeps : (main_part1_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part2_ops0_fresh : (main_part2_ops0 : List (HloOp τ sig (Elt F))).Forall fun op => op.fresh = ∅ := by
  simp only [List.Forall]; repeat' constructor
set_option maxHeartbeats 4000000 in
/-- Each operation of the stretch writes its own result buffer only, which is no argument and not the region's output. -/
theorem main_part2_ops0_keeps : (main_part2_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part3_ops0_fresh : (main_part3_ops0 : List (HloOp τ sig (Elt F))).Forall fun op => op.fresh = ∅ := by
  simp only [List.Forall]; repeat' constructor
set_option maxHeartbeats 4000000 in
/-- Each operation of the stretch writes its own result buffer only, which is no argument and not the region's output. -/
theorem main_part3_ops0_keeps : (main_part3_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part4_ops0_fresh : (main_part4_ops0 : List (HloOp τ sig (Elt F))).Forall fun op => op.fresh = ∅ := by
  simp only [List.Forall]; repeat' constructor
set_option maxHeartbeats 4000000 in
/-- Each operation of the stretch writes its own result buffer only, which is no argument and not the region's output. -/
theorem main_part4_ops0_keeps : (main_part4_ops0 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)
theorem main_part4_ops1_fresh : (main_part4_ops1 : List (HloOp τ sig (Elt F))).Forall fun op => op.fresh = ∅ := by
  simp only [List.Forall]; repeat' constructor
set_option maxHeartbeats 4000000 in
/-- Each operation of the stretch writes its own result buffer only, which is no argument and not the region's output. -/
theorem main_part4_ops1_keeps : (main_part4_ops1 : List (HloOp τ sig (Elt F))).Forall fun op => Keeps op := by
  simp only [List.Forall, Keeps, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide)

theorem tail_sub : ∀ ops ∈ (tailOpss : List (List (HloOp τ sig (Elt F)))), ∀ op ∈ ops, op.bufs ⊆ StableHlo.tcRefs τ sig := by
  intro ops hops
  simp only [List.mem_cons, List.mem_nil_iff, or_false] at hops
  rcases hops with rfl | rfl | rfl | rfl | rfl | rfl | rfl | rfl
  · exact List.forall_iff_forall_mem.mp main_part0_ops0_sub
  · exact List.forall_iff_forall_mem.mp main_part0_ops1_sub
  · exact List.forall_iff_forall_mem.mp main_part0_ops2_sub
  · exact List.forall_iff_forall_mem.mp main_part1_ops0_sub
  · exact List.forall_iff_forall_mem.mp main_part2_ops0_sub
  · exact List.forall_iff_forall_mem.mp main_part3_ops0_sub
  · exact List.forall_iff_forall_mem.mp main_part4_ops0_sub
  · exact List.forall_iff_forall_mem.mp main_part4_ops1_sub

theorem tail_fresh : ∀ ops ∈ (tailOpss : List (List (HloOp τ sig (Elt F)))), ∀ op ∈ ops, op.fresh = ∅ := by
  intro ops hops
  simp only [List.mem_cons, List.mem_nil_iff, or_false] at hops
  rcases hops with rfl | rfl | rfl | rfl | rfl | rfl | rfl | rfl
  · exact List.forall_iff_forall_mem.mp main_part0_ops0_fresh
  · exact List.forall_iff_forall_mem.mp main_part0_ops1_fresh
  · exact List.forall_iff_forall_mem.mp main_part0_ops2_fresh
  · exact List.forall_iff_forall_mem.mp main_part1_ops0_fresh
  · exact List.forall_iff_forall_mem.mp main_part2_ops0_fresh
  · exact List.forall_iff_forall_mem.mp main_part3_ops0_fresh
  · exact List.forall_iff_forall_mem.mp main_part4_ops0_fresh
  · exact List.forall_iff_forall_mem.mp main_part4_ops1_fresh

theorem tail_keeps : ∀ ops ∈ (tailOpss : List (List (HloOp τ sig (Elt F)))), ∀ op ∈ ops, Keeps op := by
  intro ops hops
  simp only [List.mem_cons, List.mem_nil_iff, or_false] at hops
  rcases hops with rfl | rfl | rfl | rfl | rfl | rfl | rfl | rfl
  · exact List.forall_iff_forall_mem.mp main_part0_ops0_keeps
  · exact List.forall_iff_forall_mem.mp main_part0_ops1_keeps
  · exact List.forall_iff_forall_mem.mp main_part0_ops2_keeps
  · exact List.forall_iff_forall_mem.mp main_part1_ops0_keeps
  · exact List.forall_iff_forall_mem.mp main_part2_ops0_keeps
  · exact List.forall_iff_forall_mem.mp main_part3_ops0_keeps
  · exact List.forall_iff_forall_mem.mp main_part4_ops0_keeps
  · exact List.forall_iff_forall_mem.mp main_part4_ops1_keeps

theorem tail_keeps_flat : ∀ op ∈ (tailOpss : List (List (HloOp τ sig (Elt F)))).flatten, Keeps op := by
  intro op hop
  obtain ⟨ops, hops, h⟩ := List.mem_flatten.mp hop
  exact tail_keeps ops hops op h

/-- @main around the region: nothing before it, the region, the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOpss (F := F)).map StableHlo.seq)) :=
  Pipeline.hmain_around cfgs 0 defs₀ 𝒱₀ m main [] tailOpss trivial trivial main_chain_windows

/-- The later lines touch the pipeline's arrays and the bypassing buffers only. -/
theorem sfx_sub : ∀ ops ∈ (tailOpss : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op (tail_sub ops hops op hop)

/-- And write no array of the pipeline. -/
theorem sfx_keeps : ∀ ops ∈ (tailOpss : List (List (HloOp τ sig (Elt F)))), ∀ op ∈ ops,
    ∀ w, Proc.devRef .tc (Pipeline.arrRef spec0 w) ∉ op.writes := by
  intro ops hops op hop w
  have h := tail_keeps ops hops op hop
  fin_cases w
  · exact h.1
  · exact h.2.2.1
  · exact h.2.2.2.1
  · exact h.2.2.2.2

/-! ## The run -/

set_option backward.isDefEq.respectTransparency.types false in
/-- Every weakly fair execution of @main terminates, every array of the pipeline ends at what the proof data computes and
    every other unscoped buffer as the later lines leave it. -/
theorem run_main : θ_run defs (onTc (τ := τ) (main (F := F))) (s₀ m ρ)
    (Pipeline.FramePost cfgs (dats m) 0 (Pipeline.afterTail₀ cfgs (dats m) 0 (V0 m) tailOpss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOpss) (hsub := sfx_sub) (hfresh := tail_fresh) (hkeep := sfx_keeps)
    (hmain := hmain m Variants.none) (hA := A_eq m) (hΦ := fun _ _ => rfl)

/-- A buffer the later lines do not write, and no window stages, ends as launched. -/
theorem tail_of_kept (c : Dev nD) (b : Ref sig .tc)
    (hk : ∀ op ∈ (tailOpss : List (List (HloOp τ sig (Elt F)))).flatten, Proc.devRef (τ := τ) .tc b ∉ op.writes)
    (hb : ∀ w, Pipeline.arrRef spec0 w ≠ b) :
    Pipeline.afterTail₀ cfgs (dats m) 0 (V0 m) tailOpss c b = m ((c : Thread nD τ).loc b) := by
  unfold Pipeline.afterTail₀
  rw [StableHlo.after_of_forall_not_mem (b := Proc.devRef .tc b) _ _ hk, Pipeline.withArrays_of_ne _ c (V0 m c) _ b hb]
  rfl

/-- The run, read at the result buffer and the arguments: the result is the later lines' fold over the region's exit
    contents, read at the result buffer; the arguments end as launched (an argument a window stages by the proof
    data — an input's array is never written back —, the edge list because no line writes it). -/
theorem run_result : θ_run defs (onTc (τ := τ) (main (F := F))) ⟨m, fun _ => 0, ρ⟩ (fun r => ∀ c : Dev nD,
      r.2.mem ((c.tc : Thread nD τ).loc main_v211) = Pipeline.afterTail₀ cfgs (dats m) 0 (V0 m) tailOpss c main_v211
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v211 (Pipeline.mem_restRefs_of main_v211 (by decide) (by decide)),
      ((h c).1 0).trans (((dats m 0 c).arrAt_in 0 rfl _).trans ((A_eq m c 0).trans rfl)),
      ((h c).2 main_arg1 (Pipeline.mem_restRefs_of main_arg1 (by decide) (by decide))).trans
        (tail_of_kept m c main_arg1 (fun op hop => (tail_keeps_flat op hop).2.1) (by decide)),
      ((h c).1 1).trans (((dats m 0 c).arrAt_in 1 rfl _).trans ((A_eq m c 1).trans rfl)),
      ((h c).1 2).trans (((dats m 0 c).arrAt_in 2 rfl _).trans ((A_eq m c 2).trans rfl))⟩) (run_main m ρ)

/-- The frame: the run, the result dropped. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_result m ρ)

end Cert.KernelIdeal.Hand

end
-- ==== Proof.RefFrame.lean ====
/-
  The reference's frame: every weakly fair execution of its 292 host operations terminates, and no operation writes an
  argument buffer, so the four arguments end as launched.
-/
import proofs.«146477_j24300924961369_1_alg».proof.Proof.RefRun

noncomputable section

namespace Cert.ReferenceIdeal.RefValue

open Cert.ReferenceIdeal Cert.ReferenceIdeal.Gen Cert.ReferenceIdeal.RunCopy
open Idealize.ShloMosaic Idealize.ShloMosaic.TcCoe Idealize.SL.Sem Idealize.ShloMosaic.StableHlo

variable {F : FTy → Type} [FloatOps F]

set_option maxRecDepth 100000 in
set_option maxHeartbeats 400000000 in
theorem keeps_arg0 (V : Valuation τ sig (Elt F)) : after (ops (F := F)) V (Proc.devRef .tc main_arg0) = V (Proc.devRef .tc main_arg0) := by
  after_results_simp
set_option maxRecDepth 100000 in
set_option maxHeartbeats 400000000 in
theorem keeps_arg1 (V : Valuation τ sig (Elt F)) : after (ops (F := F)) V (Proc.devRef .tc main_arg1) = V (Proc.devRef .tc main_arg1) := by
  after_results_simp
set_option maxRecDepth 100000 in
set_option maxHeartbeats 400000000 in
theorem keeps_arg2 (V : Valuation τ sig (Elt F)) : after (ops (F := F)) V (Proc.devRef .tc main_arg2) = V (Proc.devRef .tc main_arg2) := by
  after_results_simp
set_option maxRecDepth 100000 in
set_option maxHeartbeats 400000000 in
theorem keeps_arg3 (V : Valuation τ sig (Elt F)) : after (ops (F := F)) V (Proc.devRef .tc main_arg3) = V (Proc.devRef .tc main_arg3) := by
  after_results_simp

/-- The reference's run, read at the arguments: they end as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c main_arg0).trans (keeps_arg0 _), (h c main_arg1).trans (keeps_arg1 _),
      (h c main_arg2).trans (keeps_arg2 _), (h c main_arg3).trans (keeps_arg3 _)⟩) (run_after m ρ)

end Cert.ReferenceIdeal.RefValue

end
-- ==== Proof.EncSpec.lean ====
/-
  The encoder as one function of its three arrays, on the extended reals:

      enc x W1 W2 (p, q) = ∑ k < 256, max (∑ j < 512, x[p, j] · W1[k, j]) 0 · W2[q, k]

  (the hidden layer relu(x · W1ᵀ), then the product with W2ᵀ), and the same function of a block of 1000 rows of x.
  A row block of the whole-array function is the block function of the row block: both read the same entries.
-/
import Idealize.ShloMosaic.Lib.ValueIdx
import Idealize.ShloMosaic.PureOps.Ideal.Laws

noncomputable section

open scoped BigOperators

namespace Cert.Enc

open Idealize.ShloMosaic Idealize.ShloMosaic.ValueIdx

/-- One entry of relu(x · W1ᵀ) · W2ᵀ, from row `p` of `x` (given as a function of the column) and column `q`. -/
def entry (row : Fin 512 → EReal) (w1 : (⟨2, ![256, 512]⟩ : Shape).Idx → EReal) (w2 : (⟨2, ![64, 256]⟩ : Shape).Idx → EReal)
    (q : Fin 64) : EReal :=
  ∑ k : Fin 256, max (∑ j : Fin 512, row j * w1 (ix2 k j)) 0 * w2 (ix2 q k)

/-- The encoder over all 50000 rows. -/
def enc (x : (⟨2, ![50000, 512]⟩ : Shape).Idx → EReal) (w1 : (⟨2, ![256, 512]⟩ : Shape).Idx → EReal)
    (w2 : (⟨2, ![64, 256]⟩ : Shape).Idx → EReal) : (⟨2, ![50000, 64]⟩ : Shape).Idx → EReal :=
  fun i => entry (fun j => x (ix2 (i 0) j)) w1 w2 (i 1)

/-- The encoder over a block of 1000 rows. -/
def encBlock (xb : (⟨2, ![1000, 512]⟩ : Shape).Idx → EReal) (w1 : (⟨2, ![256, 512]⟩ : Shape).Idx → EReal)
    (w2 : (⟨2, ![64, 256]⟩ : Shape).Idx → EReal) : (⟨2, ![1000, 64]⟩ : Shape).Idx → EReal :=
  fun y => entry (fun j => xb (ix2 (y 0) j)) w1 w2 (y 1)

theorem enc_ix2 (x w1 w2) (p : Fin 50000) (q : Fin 64) :
    enc x w1 w2 (ix2 p q) = entry (fun j => x (ix2 p j)) w1 w2 q := rfl

theorem encBlock_ix2 (xb w1 w2) (p : Fin 1000) (q : Fin 64) :
    encBlock xb w1 w2 (ix2 p q) = entry (fun j => xb (ix2 p j)) w1 w2 q := rfl

end Cert.Enc

end
-- ==== Proof.LibTransposedDot.lean ====
/-
  A product with the right operand transposed, read at an index, on the extended reals.

  For the dimension numbers of an M×K by N×K product (contract the left operand's axis 1 with the
  right operand's axis 1, no batch axis), the entry (p, q) of the product is ∑ k, a[p, k] · b[q, k]:
  for a matmul into the zero splat and for the host's dot_general. The contraction's one-axis index
  is re-indexed to its coordinate.
-/
import Idealize.ShloMosaic.Lib.ValueIdx
import Idealize.ShloMosaic.PureOps.Ideal.Laws

noncomputable section

open scoped BigOperators

namespace Idealize.ShloMosaic.TransposedDot

open Idealize.ShloMosaic Idealize.ShloMosaic.ValueIdx

variable (M K N : Nat)

/-- The left operand's row coordinate is the output's row. -/
theorem lhs_row (i : (⟨2, ![M, N]⟩ : Shape).Idx) (c : (DotDims.transposedRhs M K N).contr.Idx) :
    ((DotDims.transposedRhs M K N).lhsIdx i c 0).val = (i 0).val := by
  unfold DotDims.lhsIdx
  rw [dif_neg (show ¬(0 : Fin (⟨2, ![M, K]⟩ : Shape).rank) ∈ (DotDims.transposedRhs M K N).lhsBatch by simp [DotDims.transposedRhs]),
    dif_pos (show (0 : Fin (⟨2, ![M, K]⟩ : Shape).rank) ∈ (DotDims.transposedRhs M K N).lhsNonContracting by simp [DotDims.transposedRhs])]
  rfl

/-- The right operand's row coordinate is the output's column. -/
theorem rhs_row (i : (⟨2, ![M, N]⟩ : Shape).Idx) (c : (DotDims.transposedRhs M K N).contr.Idx) :
    ((DotDims.transposedRhs M K N).rhsIdx i c 0).val = (i 1).val := by
  unfold DotDims.rhsIdx
  rw [dif_neg (show ¬(0 : Fin (⟨2, ![N, K]⟩ : Shape).rank) ∈ (DotDims.transposedRhs M K N).rhsBatch by simp [DotDims.transposedRhs]),
    dif_pos (show (0 : Fin (⟨2, ![N, K]⟩ : Shape).rank) ∈ (DotDims.transposedRhs M K N).rhsNonContracting by simp [DotDims.transposedRhs])]
  rfl

/-- The left operand's index at output (p, q) and contraction coordinate k is (p, k). -/
theorem lhsIdx_eq (p : Fin M) (q : Fin N) (k : Fin K) :
    (DotDims.transposedRhs M K N).lhsIdx (ix2 p q) ((contrEquiv1 (DotDims.transposedRhs M K N) K rfl rfl).symm k) = ix2 p k := by
  have hk := contrEquiv1_symm_val (DotDims.transposedRhs M K N) K rfl rfl k
  funext a
  refine Fin.ext ?_
  match a with
  | ⟨0, _⟩ => exact lhs_row M K N (ix2 p q) _
  | ⟨1, _⟩ => exact ((DotDims.transposedRhs M K N).lhsIdx_val_of_single rfl (ix2 p q) _).trans hk

/-- The right operand's index at output (p, q) and contraction coordinate k is (q, k). -/
theorem rhsIdx_eq (p : Fin M) (q : Fin N) (k : Fin K) :
    (DotDims.transposedRhs M K N).rhsIdx (ix2 p q) ((contrEquiv1 (DotDims.transposedRhs M K N) K rfl rfl).symm k) = ix2 q k := by
  have hk := contrEquiv1_symm_val (DotDims.transposedRhs M K N) K rfl rfl k
  funext a
  refine Fin.ext ?_
  match a with
  | ⟨0, _⟩ => exact rhs_row M K N (ix2 p q) _
  | ⟨1, _⟩ => exact ((DotDims.transposedRhs M K N).rhsIdx_val_of_single rfl (ix2 p q) _).trans hk

/-- The contraction sum at (p, q) is the sum over the shared last coordinate. -/
theorem contr_sum (a : (⟨2, ![M, K]⟩ : Shape).Idx → EReal) (b : (⟨2, ![N, K]⟩ : Shape).Idx → EReal) (p : Fin M) (q : Fin N) :
    (∑ k : (DotDims.transposedRhs M K N).contr.Idx,
        a ((DotDims.transposedRhs M K N).lhsIdx (ix2 p q) k) * b ((DotDims.transposedRhs M K N).rhsIdx (ix2 p q) k))
      = ∑ k : Fin K, a (ix2 p k) * b (ix2 q k) := by
  rw [← Equiv.sum_comp (contrEquiv1 (DotDims.transposedRhs M K N) K rfl rfl).symm]
  refine Finset.sum_congr rfl fun k _ => ?_
  rw [lhsIdx_eq, rhsIdx_eq]

/-- A matmul into the zero splat, read at (p, q). -/
theorem matmul_zero_apply {φ₁ φ₂ : FTy} (prec : Option ContractPrecision)
    (a : FVec Ideal ⟨2, ![M, K]⟩ φ₁) (b : FVec Ideal ⟨2, ![N, K]⟩ φ₂) (p : Fin M) (q : Fin N) :
    FloatOps.matmul (DotDims.transposedRhs M K N) prec a b (constant ⟨2, ![M, N]⟩ .f32 0x00000000#32) (ix2 p q)
      = ∑ k : Fin K, a (ix2 p k) * b (ix2 q k) :=
  (Ideal.matmul_constant_zero_apply (DotDims.transposedRhs M K N) prec a b (ix2 p q)).trans (contr_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![N, K]⟩ φ₂) (p : Fin M) (q : Fin N) :
    FloatOps.dotGeneral (DotDims.transposedRhs M K N) prec sched a b (ix2 p q) = ∑ k : Fin K, a (ix2 p k) * b (ix2 q k) :=
  (Ideal.dotGeneral_apply (DotDims.transposedRhs M K N) prec sched a b (ix2 p q)).trans (contr_sum M K N a b p q)

end Idealize.ShloMosaic.TransposedDot

end
-- ==== Proof.KiPay.lean ====
/-
  The body's one stored value, read at an entry, on the extended reals: with the roundings to bf16 the identity and
  both products into the zero accumulator plain sums, entry (p, q) of the stored block is
  ∑ k, max (∑ j, x[p, j] · W1[k, j]) 0 · W2[q, k] — the encoder over the block's 1000 rows.
-/
import proofs.«146477_j24300924961369_1_alg».proof.Proof.Gen.KernelIdeal.Skeleton
import proofs.«146477_j24300924961369_1_alg».proof.Proof.EncSpec
import proofs.«146477_j24300924961369_1_alg».proof.Proof.LibTransposedDot

noncomputable section

open scoped BigOperators

namespace Cert.KernelIdeal.HandValue

open Cert.KernelIdeal Cert.KernelIdeal.Gen
open Idealize.ShloMosaic Idealize.ShloMosaic.ValueIdx

/-- The stored value is the encoder over the block. -/
theorem pay_eq (v0 : Vec Ideal S1000x512 .f32) (v2 : Vec Ideal S256x512 .f32) (v4 : Vec Ideal S64x256 .f32) :
    k0_pay1 (F := Ideal) v0 v2 v4 = Cert.Enc.encBlock v0 v2 v4 := by
  funext y
  obtain ⟨p, q, rfl⟩ : ∃ (p : Fin 1000) (q : Fin 64), y = ix2 p q := ⟨y 0, y 1, eq_ix2 y⟩
  rw [Cert.Enc.encBlock_ix2]
  unfold k0_pay1 Cert.Enc.entry
  refine (TransposedDot.matmul_zero_apply 1000 256 64 none _ _ p q).trans ?_
  refine Finset.sum_congr rfl fun k _ => ?_
  refine congrArg₂ (· * ·) ?_ rfl
  refine congrArg₂ max ?_ ?_
  · exact TransposedDot.matmul_zero_apply 1000 512 256 none _ _ p k
  · exact Ideal.ofBits_zero_f32

end Cert.KernelIdeal.HandValue

end
-- ==== Proof.KiValue.lean ====
/-
  From blocks to the array. At grid point t the output window's block is rows 1000·t … 1000·t + 999 of the output
  array, the x window's block the same rows of x, and the two weight windows' blocks the whole matrices. What point t
  writes back — the encoder over its row block — is therefore the row block of the encoder over the whole arrays, the
  fifty row blocks cover the output array, and the array ends holding the encoder of the arguments.
-/
import proofs.«146477_j24300924961369_1_alg».proof.Proof.KiBody
import proofs.«146477_j24300924961369_1_alg».proof.Proof.KiPay
import Idealize.ShloMosaic.Lib.Pipeline.Value

set_option maxRecDepth 16384

noncomputable section

open scoped BigOperators

namespace Cert.KernelIdeal.HandValue

open Cert.KernelIdeal Cert.KernelIdeal.Gen Cert.KernelIdeal.Hand
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- The encoder over a row block is the row block of the encoder: if the x block's entry (p, j) is x's entry
    (1000·r + p, j), the weight blocks are the whole matrices, and the output block's entry (p, q) sits at
    (1000·r + p, q), the two read the same entries. -/
theorem block_of_whole (X : S50000x512.Idx → EReal) (W1 : S256x512.Idx → EReal) (W2 : S64x256.Idx → EReal)
    (e0 : S1000x512.Idx → S50000x512.Idx) (e1 : S256x512.Idx → S256x512.Idx) (e2 : S64x256.Idx → S64x256.Idx)
    (e3 : S1000x64.Idx → S50000x64.Idx) (r : ℕ)
    (h0a : ∀ y, (e0 y 0).val = r * 1000 + (y 0).val) (h0b : ∀ y, (e0 y 1).val = (y 1).val)
    (h1 : ∀ y, e1 y = y) (h2 : ∀ y, e2 y = y)
    (h3a : ∀ y, (e3 y 0).val = r * 1000 + (y 0).val) (h3b : ∀ y, (e3 y 1).val = (y 1).val) (y : S1000x64.Idx) :
    Cert.Enc.encBlock (fun y' => X (e0 y')) (fun y' => W1 (e1 y')) (fun y' => W2 (e2 y')) y = Cert.Enc.enc X W1 W2 (e3 y) := by
  obtain ⟨p, q, rfl⟩ : ∃ (p : Fin 1000) (q : Fin 64), y = ix2 p q := ⟨y 0, y 1, eq_ix2 y⟩
  have hlt : (e3 (ix2 p q) 0).val < 50000 := (e3 (ix2 p q) 0).isLt
  have hrow : (e3 (ix2 p q) 0).val = r * 1000 + p.val := h3a (ix2 p q)
  have hP : r * 1000 + p.val < 50000 := by omega
  have he3 : e3 (ix2 p q) = ix2 (⟨r * 1000 + p.val, hP⟩ : Fin 50000) q := by
    funext a
    refine Fin.ext ?_
    match a with
    | ⟨0, _⟩ => exact h3a (ix2 p q)
    | ⟨1, _⟩ => exact h3b (ix2 p q)
  rw [Cert.Enc.encBlock_ix2, he3, Cert.Enc.enc_ix2]
  have hw1 : (fun y' => W1 (e1 y')) = W1 := funext fun y' => congrArg W1 (h1 y')
  have hw2 : (fun y' => W2 (e2 y')) = W2 := funext fun y' => congrArg W2 (h2 y')
  have hx : (fun j : Fin 512 => X (e0 (ix2 p j))) = fun j => X (ix2 (⟨r * 1000 + p.val, hP⟩ : Fin 50000) j) := by
    funext j
    refine congrArg X ?_
    funext a
    refine Fin.ext ?_
    match a with
    | ⟨0, _⟩ => exact h0a (ix2 p j)
    | ⟨1, _⟩ => exact h0b (ix2 p j)
  rw [hw1, hw2, hx]

/-- The printed index maps over the grid: the x window and the output window sit at row block t, the weight windows at
    block (0, 0). -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point t writes back is block t of the encoder of the arrays as the region finds them. -/
theorem flushed_eq (c : Dev nD) (t : Fin cfg0.N) :
    (dats m 0 c).flushed 3 t
      = ((cfg0.win 3).blk t).view.read (Elt Ideal) (Cert.Enc.enc (V m c main_arg0) (V m c main_arg2) (V m c main_arg3)) := by
  show (cfg0.win 3).cut (grid0.coords t) ((dats m 0 c).after 3 t) = _
  rw [after0_3]
  unfold outBlock
  rw [View.canon_unit_zero hz]
  simp only [View.ld_unit_zero (S := S1000x512) hz, View.ld_unit_zero (S := S256x512) hz, View.ld_unit_zero (S := S64x256) hz]
  rw [pay_eq]
  obtain ⟨a0, a1, b0, b1, c0, c1, d0, d1⟩ := idx_facts t
  funext y
  refine block_of_whole (V m c main_arg0) (V m c main_arg2) (V m c main_arg3)
    ((cfg0.win 0).blk t).view.emb ((cfg0.win 1).blk t).view.emb ((cfg0.win 2).blk t).view.emb ((cfg0.win 3).blk t).view.emb
    t.val ?_ ?_ ?_ ?_ ?_ ?_ y
  · intro y; show win0_0.index t (0 : Fin 2) * 1000 + 1 * (y 0).val = t.val * 1000 + (y 0).val; omega
  · intro y; show win0_0.index t (1 : Fin 2) * 512 + 1 * (y 1).val = (y 1).val; omega
  · intro y; funext a; refine Fin.ext ?_
    match a with
    | ⟨0, _⟩ => show win0_1.index t (0 : Fin 2) * 256 + 1 * (y 0).val = (y 0).val; omega
    | ⟨1, _⟩ => show win0_1.index t (1 : Fin 2) * 512 + 1 * (y 1).val = (y 1).val; omega
  · intro y; funext a; refine Fin.ext ?_
    match a with
    | ⟨0, _⟩ => show win0_2.index t (0 : Fin 2) * 64 + 1 * (y 0).val = (y 0).val; omega
    | ⟨1, _⟩ => show win0_2.index t (1 : Fin 2) * 256 + 1 * (y 1).val = (y 1).val; omega
  · intro y; show win0_3.index t (0 : Fin 2) * 1000 + 1 * (y 0).val = t.val * 1000 + (y 0).val; omega
  · intro y; show win0_3.index t (1 : Fin 2) * 64 + 1 * (y 1).val = (y 1).val; omega

/-- An index of the output array is in point t's block iff each coordinate is in the block's range on its axis. -/
theorem mem_blk (t : Fin cfg0.N) (i : S50000x64.Idx) :
    i ∈ ((cfg0.win 3).blk t).view.set ↔ ∀ a : Fin 2, win0_3.index t a * S1000x64.size a ≤ (i a).val ∧ (i a).val < win0_3.index t a * S1000x64.size a + S1000x64.size a := by
  show i ∈ ((View.whole main_v0).slice (win0_3.rect t)).set ↔ _
  rw [View.set_slice_whole, Rect.mem_set_unit]
  exact Iff.rfl

/-- The fifty row blocks cover the output array: row r is in block r / 1000. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  have hN : cfg0.N = 50 := N_0
  let t : Fin cfg0.N := ⟨(i 0).val / 1000, by omega⟩
  obtain ⟨a0, a1, b0, b1, c0, c1, d0, d1⟩ := idx_facts t
  have ht : t.val = (i 0).val / 1000 := rfl
  refine ⟨t, flush0_3 t, ?_⟩
  rw [mem_blk]
  intro a
  match a with
  | ⟨0, _⟩ => show win0_3.index t (0 : Fin 2) * 1000 ≤ (i 0).val ∧ (i 0).val < win0_3.index t (0 : Fin 2) * 1000 + 1000; omega
  | ⟨1, _⟩ => show win0_3.index t (1 : Fin 2) * 64 ≤ (i 1).val ∧ (i 1).val < win0_3.index t (1 : Fin 2) * 64 + 64; omega

/-- The output array after the region: the encoder of x, W1, W2 as launched. -/
theorem final (c : Dev nD) :
    (dats m 0 c).arrAt 3 cfg0.N
      = Cert.Enc.enc (m ((c : Thread nD τ).loc main_arg0)) (m ((c : Thread nD τ).loc main_arg2)) (m ((c : Thread nD τ).loc main_arg3)) :=
  (dats m 0 c).arrAt_eq_of_cover 3 _ (fun t _ => flushed_eq m c t) cover

end Cert.KernelIdeal.HandValue

end
-- ==== Proof.LibPlainDot.lean ====
/-
  A plain matrix product read at an index, on the extended reals.

  For the dimension numbers of an M×K by K×N product (contract the left operand's axis 1 with the
  right operand's axis 0, no batch axis), the entry (p, q) of the product is ∑ k, a[p, k] · b[k, q]:
  for the host's dot_general, for a matmul into any accumulator (plus the accumulator's entry), and
  for a matmul into the zero splat. The contraction's one-axis index is re-indexed to its coordinate.
-/
import Idealize.ShloMosaic.Lib.ValueIdx
import Idealize.ShloMosaic.PureOps.Ideal.Laws

noncomputable section

open scoped BigOperators

namespace Idealize.ShloMosaic.PlainDot

open Idealize.ShloMosaic Idealize.ShloMosaic.ValueIdx

variable (M K N : Nat)

/-- The left operand's row coordinate is the output's row. -/
theorem plain_lhs_row (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch by simp [DotDims.plain]),
    dif_pos (show (0 : Fin (⟨2, ![M, K]⟩ : Shape).rank) ∈ (DotDims.plain M K N).lhsNonContracting by simp [DotDims.plain])]
  rfl

/-- The right operand's column coordinate is the output's column. -/
theorem plain_rhs_col (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch by simp [DotDims.plain]),
    dif_pos (show (1 : Fin (⟨2, ![K, N]⟩ : Shape).rank) ∈ (DotDims.plain M K N).rhsNonContracting by simp [DotDims.plain])]
  rfl

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => exact plain_lhs_row M K N (ix2 p q) _
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => exact plain_rhs_col M K N (ix2 p q) _

/-- The contraction sum of a plain product at (p, q) is the sum over the shared coordinate. -/
theorem plain_sum (a : (⟨2, ![M, K]⟩ : Shape).Idx → EReal) (b : (⟨2, ![K, N]⟩ : Shape).Idx → EReal) (p : Fin M) (q : Fin N) :
    (∑ k : (DotDims.plain M K N).contr.Idx,
        a ((DotDims.plain M K N).lhsIdx (ix2 p q) k) * b ((DotDims.plain M K N).rhsIdx (ix2 p q) k))
      = ∑ k : Fin K, a (ix2 p k) * b (ix2 k q) := by
  rw [← Equiv.sum_comp (contrEquiv1 (DotDims.plain M K N) K rfl rfl).symm]
  refine Finset.sum_congr rfl fun k _ => ?_
  rw [plain_lhsIdx, plain_rhsIdx]

/-- A matmul into the zero splat, read at (p, q). -/
theorem matmul_zero_apply {φ₁ φ₂ : FTy} (prec : Option ContractPrecision)
    (a : FVec Ideal ⟨2, ![M, K]⟩ φ₁) (b : FVec Ideal ⟨2, ![K, N]⟩ φ₂) (p : Fin M) (q : Fin N) :
    FloatOps.matmul (DotDims.plain M K N) prec a b (constant ⟨2, ![M, N]⟩ .f32 0x00000000#32) (ix2 p q)
      = ∑ k : Fin K, a (ix2 p k) * b (ix2 k q) :=
  (Ideal.matmul_constant_zero_apply (DotDims.plain M K N) prec a b (ix2 p q)).trans (plain_sum M K N a b p q)

/-- The host's dot_general, read at (p, q). -/
theorem dotGeneral_apply {φ₁ φ₂ : FTy} (prec : Option ContractPrecision) (sched : HostSchedule)
    (a : FVec Ideal ⟨2, ![M, K]⟩ φ₁) (b : FVec Ideal ⟨2, ![K, N]⟩ φ₂) (p : Fin M) (q : Fin N) :
    FloatOps.dotGeneral (DotDims.plain M K N) prec sched a b (ix2 p q) = ∑ k : Fin K, a (ix2 p k) * b (ix2 k q) :=
  (Ideal.dotGeneral_apply (DotDims.plain M K N) prec sched a b (ix2 p q)).trans (plain_sum M K N a b p q)

end Idealize.ShloMosaic.PlainDot

end
-- ==== Proof.RefHead.lean ====
/-
  The reference's first seven operations are its encoder: W1 transposed, the product x · W1ᵀ, its maximum with the zero
  splat, W2 transposed, the product with W2ᵀ. Read at an entry (p, q) — a plain product is a sum over the shared axis, a
  transposed matrix reads the operand at the swapped index, the splat reads 0 — it is the encoder
  ∑ k, max (∑ j, x[p, j] · W1[k, j]) 0 · W2[q, k]. None of the reference's operations writes an argument.
-/
import proofs.«146477_j24300924961369_1_alg».proof.Proof.RefRun
import proofs.«146477_j24300924961369_1_alg».proof.Proof.EncSpec
import proofs.«146477_j24300924961369_1_alg».proof.Proof.LibPlainDot
import Idealize.ShloMosaic.Lib.ValueLayout
import Idealize.ShloMosaic.Lib.IdealHost

noncomputable section

open scoped BigOperators

namespace Cert.ReferenceIdeal.RefValue

open Cert.ReferenceIdeal Cert.ReferenceIdeal.Gen Cert.ReferenceIdeal.RunCopy
open Idealize.ShloMosaic Idealize.ShloMosaic.TcCoe Idealize.SL.Sem Idealize.ShloMosaic.StableHlo Idealize.ShloMosaic.ValueIdx

/-- The host's encoder term is the encoder. -/
theorem host_enc (x : FVec Ideal S50000x512 .f32) (w1 : FVec Ideal S256x512 .f32) (w2 : FVec Ideal S64x256 .f32) :
    Host.dotGeneral dot_S50000x256_S256x64_S50000x64_1_0_0_1_n_n none
        (maximumf (Host.dotGeneral dot_S50000x512_S512x256_S50000x256_1_0_0_1_n_n none x
            (transpose S512x256 [1, 0] w1 transposes_S256x512_S512x256_1_0))
          (broadcastInDim S50000x256 ![] bcast_S_S50000x256 (constant (F := Ideal) S_ .f32 0x00000000#32)))
        (transpose S256x64 [1, 0] w2 transposes_S64x256_S256x64_1_0)
      = Cert.Enc.enc x w1 w2 := by
  funext i
  obtain ⟨p, q, rfl⟩ : ∃ (p : Fin 50000) (q : Fin 64), i = ix2 p q := ⟨i 0, i 1, eq_ix2 i⟩
  rw [Cert.Enc.enc_ix2]
  unfold Cert.Enc.entry
  refine (PlainDot.dotGeneral_apply 50000 256 64 none .single _ _ p q).trans ?_
  refine Finset.sum_congr rfl fun k _ => ?_
  refine congrArg₂ (· * ·) ?_ (transpose_ix2_apply w2 _ k q)
  refine congrArg₂ max ?_ ?_
  · refine (PlainDot.dotGeneral_apply 50000 512 256 none .single _ _ p k).trans ?_
    refine Finset.sum_congr rfl fun j _ => ?_
    exact congrArg (x (ix2 p j) * ·) (transpose_ix2_apply w1 _ j k)
  · exact (broadcastInDim_scalar_apply _ _ _).trans Ideal.ofBits_zero_f32

/-- After its first seven operations the reference's buffer `main_v4` holds the encoder of the three float arguments. -/
theorem head_v4 (V : Valuation τ sig (Elt Ideal)) :
    after ((ops (F := Ideal)).take 7) V (Proc.devRef .tc main_v4)
      = Cert.Enc.enc (V (Proc.devRef .tc main_arg0)) (V (Proc.devRef .tc main_arg2)) (V (Proc.devRef .tc main_arg3)) := by
  simp only [ops, List.take_succ_cons, List.take_zero]
  after_results_simp
  exact host_enc _ _ _

/-- They leave the edge list as it was. -/
theorem head_arg1 (V : Valuation τ sig (Elt Ideal)) :
    after ((ops (F := Ideal)).take 7) V (Proc.devRef .tc main_arg1) = V (Proc.devRef .tc main_arg1) := by
  simp only [ops, List.take_succ_cons, List.take_zero]
  after_results_simp

end Cert.ReferenceIdeal.RefValue

end
-- ==== Proof.LibAfterSplit.lean ====
/-
  A line of host operations run in two parts.

  The buffer contents after a list of operations are the contents after its last operations run from
  the contents after its first n: the fold over the list is the fold over the rest started from the
  fold over the first part. It lets a long line be read in stages, each from ANY contents.
-/
import Idealize.ShloMosaic.Lib.StableHlo.Run

noncomputable section

namespace Idealize.ShloMosaic.StableHlo

variable {τ : Topo} {sig : RefSig} {Val : EltTy → Type}

/-- The contents after the whole line are the contents after the operations from the n-th on, run from the
    contents after the first n. -/
theorem after_drop_after_take :
    ∀ (n : Nat) (l : List (HloOp τ sig Val)) (V : Valuation τ sig Val), after (l.drop n) (after (l.take n) V) = after l V
  | 0, _, _ => rfl
  | _ + 1, [], _ => rfl
  | n + 1, op :: l, V => after_drop_after_take n l (op.result V)

end Idealize.ShloMosaic.StableHlo

end
-- ==== Proof.TailsAgree.lean ====
/-
  After the encoder both programs run the same lines: the edge list with self loops appended (source row and target
  row, each the edge list's row followed by 0 … 49999), the degree normalisation, ten rounds of
  gather · scale · scatter-add · blend, and the closing log-softmax. The kernel's program applies them to the region's
  output array, the reference to its own encoder result. Read operation by operation, the two folds are one and the same
  composed function of the encoder's result and the edge list: started from contents that agree on those two buffers,
  they end with equal results. The first seven lines (which build the two index vectors by concatenation) are read on
  their own, the remaining lines from any contents that agree on the encoder's result and the two index vectors.
-/
import proofs.«146477_j24300924961369_1_alg».proof.Proof.Gen.KernelIdeal.Launch
import proofs.«146477_j24300924961369_1_alg».proof.Proof.RefRun
import Idealize.ShloMosaic.PureOps.Ideal
import proofs.«146477_j24300924961369_1_alg».proof.Proof.LibAfterSplit

noncomputable section

namespace Cert.Bridge

open Idealize.ShloMosaic Idealize.ShloMosaic.TcCoe Idealize.SL.Sem Idealize.ShloMosaic.StableHlo

local notation "Kτ" => Cert.KernelIdeal.τ
local notation "Ksig" => Cert.KernelIdeal.sig
local notation "Rτ" => Cert.ReferenceIdeal.τ
local notation "Rsig" => Cert.ReferenceIdeal.sig

/-- The kernel program's lines after the region, as one list. -/
abbrev kerTail : List (HloOp Kτ Ksig (Elt Ideal)) :=
  List.flatten [Cert.KernelIdeal.Gen.main_part0_ops0, Cert.KernelIdeal.Gen.main_part0_ops1, Cert.KernelIdeal.Gen.main_part0_ops2, Cert.KernelIdeal.Gen.main_part1_ops0, Cert.KernelIdeal.Gen.main_part2_ops0, Cert.KernelIdeal.Gen.main_part3_ops0, Cert.KernelIdeal.Gen.main_part4_ops0, Cert.KernelIdeal.Gen.main_part4_ops1]

/-- The reference's lines after its encoder (its first seven operations). -/
abbrev refTail : List (HloOp Rτ Rsig (Elt Ideal)) :=
  (Cert.ReferenceIdeal.RunCopy.ops (F := Ideal)).drop 7

/-! ## The two index vectors -/

/-- Row `r` of the edge list followed by 0 … 49999, in the kernel program's vocabulary, -/
def rowK (r : Nat) (h : Cert.KernelIdeal.S2x1600000.Slices ![r, 0] Cert.KernelIdeal.S1x1600000)
    (e : (⟨Cert.KernelIdeal.S2x1600000, .i32⟩ : BufTy).Contents (Elt Ideal)) :
    (⟨Cert.KernelIdeal.S1650000, .i32⟩ : BufTy).Contents (Elt Ideal) :=
  concatenate Cert.KernelIdeal.S1650000 0
    [⟨Cert.KernelIdeal.S1600000, shapeCast Cert.KernelIdeal.S1600000 (extractStridedSlice Cert.KernelIdeal.S1x1600000 ![r, 0] e h)
        Cert.KernelIdeal.Gen.shapeCasts_S1x1600000_S1600000⟩,
      ⟨Cert.KernelIdeal.S50000, iotaInDim Cert.KernelIdeal.S50000 32 0⟩]
    Cert.KernelIdeal.Gen.concatenates_S1600000_S50000_S1650000_d0

/-- and in the reference's. -/
def rowR (r : Nat) (h : Cert.ReferenceIdeal.S2x1600000.Slices ![r, 0] Cert.ReferenceIdeal.S1x1600000)
    (e : (⟨Cert.ReferenceIdeal.S2x1600000, .i32⟩ : BufTy).Contents (Elt Ideal)) :
    (⟨Cert.ReferenceIdeal.S1650000, .i32⟩ : BufTy).Contents (Elt Ideal) :=
  concatenate Cert.ReferenceIdeal.S1650000 0
    [⟨Cert.ReferenceIdeal.S1600000, shapeCast Cert.ReferenceIdeal.S1600000 (extractStridedSlice Cert.ReferenceIdeal.S1x1600000 ![r, 0] e h)
        Cert.ReferenceIdeal.Gen.shapeCasts_S1x1600000_S1600000⟩,
      ⟨Cert.ReferenceIdeal.S50000, iotaInDim Cert.ReferenceIdeal.S50000 32 0⟩]
    Cert.ReferenceIdeal.Gen.concatenates_S1600000_S50000_S1650000_d0

/-- The two spellings are one function. -/
theorem rowK_eq_rowR (r : Nat) (h) (h') (e) : rowK r h e = rowR r h' e := rfl

section Prefix

variable (Wk : Valuation Kτ Ksig (Elt Ideal)) (Wr : Valuation Rτ Rsig (Elt Ideal))

/-- The kernel program's first seven later lines leave the source vector, -/
theorem preK_src : after (kerTail.take 7) Wk (Proc.devRef (τ := Kτ) .tc Cert.KernelIdeal.main_v4)
    = rowK 0 Cert.KernelIdeal.Gen.slices_S2x1600000_S1x1600000_0_0 (Wk (Proc.devRef (τ := Kτ) .tc Cert.KernelIdeal.main_arg1)) := by
  simp only [kerTail, Cert.KernelIdeal.Gen.main_part0_ops0, Cert.KernelIdeal.Gen.main_part0_ops1, Cert.KernelIdeal.Gen.main_part0_ops2, Cert.KernelIdeal.Gen.main_part1_ops0, Cert.KernelIdeal.Gen.main_part2_ops0, Cert.KernelIdeal.Gen.main_part3_ops0, Cert.KernelIdeal.Gen.main_part4_ops0, Cert.KernelIdeal.Gen.main_part4_ops1, List.flatten_cons, List.flatten_nil, List.append_nil, List.cons_append, List.nil_append,
    List.take_succ_cons, List.take_zero]
  after_results_simp
  rfl
/-- the target vector, -/
theorem preK_dst : after (kerTail.take 7) Wk (Proc.devRef (τ := Kτ) .tc Cert.KernelIdeal.main_v7)
    = rowK 1 Cert.KernelIdeal.Gen.slices_S2x1600000_S1x1600000_1_0 (Wk (Proc.devRef (τ := Kτ) .tc Cert.KernelIdeal.main_arg1)) := by
  simp only [kerTail, Cert.KernelIdeal.Gen.main_part0_ops0, Cert.KernelIdeal.Gen.main_part0_ops1, Cert.KernelIdeal.Gen.main_part0_ops2, Cert.KernelIdeal.Gen.main_part1_ops0, Cert.KernelIdeal.Gen.main_part2_ops0, Cert.KernelIdeal.Gen.main_part3_ops0, Cert.KernelIdeal.Gen.main_part4_ops0, Cert.KernelIdeal.Gen.main_part4_ops1, List.flatten_cons, List.flatten_nil, List.append_nil, List.cons_append, List.nil_append,
    List.take_succ_cons, List.take_zero]
  after_results_simp
  rfl
/-- and the region's output array as it was. -/
theorem preK_out : after (kerTail.take 7) Wk (Proc.devRef (τ := Kτ) .tc Cert.KernelIdeal.main_v0)
    = Wk (Proc.devRef (τ := Kτ) .tc Cert.KernelIdeal.main_v0) := by
  simp only [kerTail, Cert.KernelIdeal.Gen.main_part0_ops0, Cert.KernelIdeal.Gen.main_part0_ops1, Cert.KernelIdeal.Gen.main_part0_ops2, Cert.KernelIdeal.Gen.main_part1_ops0, Cert.KernelIdeal.Gen.main_part2_ops0, Cert.KernelIdeal.Gen.main_part3_ops0, Cert.KernelIdeal.Gen.main_part4_ops0, Cert.KernelIdeal.Gen.main_part4_ops1, List.flatten_cons, List.flatten_nil, List.append_nil, List.cons_append, List.nil_append,
    List.take_succ_cons, List.take_zero]
  after_results_simp

/-- The reference's seven lines after its encoder leave the source vector, -/
theorem preR_src : after (refTail.take 7) Wr (Proc.devRef (τ := Rτ) .tc Cert.ReferenceIdeal.main_v8)
    = rowR 0 Cert.ReferenceIdeal.Gen.slices_S2x1600000_S1x1600000_0_0 (Wr (Proc.devRef (τ := Rτ) .tc Cert.ReferenceIdeal.main_arg1)) := by
  simp only [refTail, Cert.ReferenceIdeal.RunCopy.ops, List.drop_succ_cons, List.drop_zero, List.take_succ_cons, List.take_zero]
  after_results_simp
  rfl
/-- the target vector, -/
theorem preR_dst : after (refTail.take 7) Wr (Proc.devRef (τ := Rτ) .tc Cert.ReferenceIdeal.main_v11)
    = rowR 1 Cert.ReferenceIdeal.Gen.slices_S2x1600000_S1x1600000_1_0 (Wr (Proc.devRef (τ := Rτ) .tc Cert.ReferenceIdeal.main_arg1)) := by
  simp only [refTail, Cert.ReferenceIdeal.RunCopy.ops, List.drop_succ_cons, List.drop_zero, List.take_succ_cons, List.take_zero]
  after_results_simp
  rfl
/-- and the encoder's result as it was. -/
theorem preR_out : after (refTail.take 7) Wr (Proc.devRef (τ := Rτ) .tc Cert.ReferenceIdeal.main_v4)
    = Wr (Proc.devRef (τ := Rτ) .tc Cert.ReferenceIdeal.main_v4) := by
  simp only [refTail, Cert.ReferenceIdeal.RunCopy.ops, List.drop_succ_cons, List.drop_zero, List.take_succ_cons, List.take_zero]
  after_results_simp

end Prefix

/-! ## The remaining lines -/

set_option maxRecDepth 1000000 in
set_option maxHeartbeats 2000000000 in
/-- From contents agreeing on the encoder's result and the two index vectors, the remaining lines end with equal results. -/
theorem rest_agree
    (Vk : Valuation Kτ Ksig (Elt Ideal)) (Vr : Valuation Rτ Rsig (Elt Ideal))
    (h0 : Vk (Proc.devRef (τ := Kτ) .tc Cert.KernelIdeal.main_v0) = Vr (Proc.devRef (τ := Rτ) .tc Cert.ReferenceIdeal.main_v4))
    (hs : Vk (Proc.devRef (τ := Kτ) .tc Cert.KernelIdeal.main_v4) = Vr (Proc.devRef (τ := Rτ) .tc Cert.ReferenceIdeal.main_v8))
    (hd : Vk (Proc.devRef (τ := Kτ) .tc Cert.KernelIdeal.main_v7) = Vr (Proc.devRef (τ := Rτ) .tc Cert.ReferenceIdeal.main_v11)) :
    after (kerTail.drop 7) Vk (Proc.devRef (τ := Kτ) .tc Cert.KernelIdeal.main_v211)
      = after (refTail.drop 7) Vr (Proc.devRef (τ := Rτ) .tc Cert.ReferenceIdeal.main_v215) := by
  simp only [kerTail, refTail, Cert.KernelIdeal.Gen.main_part0_ops0, Cert.KernelIdeal.Gen.main_part0_ops1, Cert.KernelIdeal.Gen.main_part0_ops2, Cert.KernelIdeal.Gen.main_part1_ops0, Cert.KernelIdeal.Gen.main_part2_ops0, Cert.KernelIdeal.Gen.main_part3_ops0, Cert.KernelIdeal.Gen.main_part4_ops0, Cert.KernelIdeal.Gen.main_part4_ops1, Cert.ReferenceIdeal.RunCopy.ops, List.drop_succ_cons, List.drop_zero,
    List.flatten_cons, List.flatten_nil, List.append_nil, List.cons_append, List.nil_append]
  after_results_simp
  rw [h0, hs, hd]
  rfl

/-- From contents agreeing on the encoder's result and on the edge list, the two tails end with equal results. -/
theorem tails_agree
    (Wk : Valuation Kτ Ksig (Elt Ideal)) (Wr : Valuation Rτ Rsig (Elt Ideal))
    (h0 : Wk (Proc.devRef (τ := Kτ) .tc Cert.KernelIdeal.main_v0) = Wr (Proc.devRef (τ := Rτ) .tc Cert.ReferenceIdeal.main_v4))
    (h1 : Wk (Proc.devRef (τ := Kτ) .tc Cert.KernelIdeal.main_arg1) = Wr (Proc.devRef (τ := Rτ) .tc Cert.ReferenceIdeal.main_arg1)) :
    after kerTail Wk (Proc.devRef (τ := Kτ) .tc Cert.KernelIdeal.main_v211)
      = after refTail Wr (Proc.devRef (τ := Rτ) .tc Cert.ReferenceIdeal.main_v215) := by
  have hk := congrFun (after_drop_after_take 7 kerTail Wk) (Proc.devRef (τ := Kτ) .tc Cert.KernelIdeal.main_v211)
  have hr := congrFun (after_drop_after_take 7 refTail Wr) (Proc.devRef (τ := Rτ) .tc Cert.ReferenceIdeal.main_v215)
  refine hk.symm.trans (Eq.trans ?_ hr)
  refine rest_agree _ _ ?_ ?_ ?_
  · rw [preK_out, preR_out]; exact h0
  · rw [preK_src, preR_src, h1]; exact rowK_eq_rowR _ _ _ _
  · rw [preK_dst, preR_dst, h1]; exact rowK_eq_rowR _ _ _ _

end Cert.Bridge

end
-- ==== Proof.Assemble.lean ====
/-
  The two idealized programs end with equal results. The kernel's program ends with the fold of its later lines over
  the region's exit contents, where the output array holds the encoder of the arguments; the reference ends with the fold
  of its 292 operations, the first seven of which leave the same encoder in a buffer of its own and the edge list
  untouched. The remaining lines are the same on both sides, so the results agree.
-/
import proofs.«146477_j24300924961369_1_alg».proof.Defs
import proofs.«146477_j24300924961369_1_alg».proof.Proof.Gen.Pre_finite_inputs
import proofs.«146477_j24300924961369_1_alg».proof.Proof.KiTail
import proofs.«146477_j24300924961369_1_alg».proof.Proof.KiValue
import proofs.«146477_j24300924961369_1_alg».proof.Proof.RefHead
import proofs.«146477_j24300924961369_1_alg».proof.Proof.RefFrame
import proofs.«146477_j24300924961369_1_alg».proof.Proof.TailsAgree
import proofs.«146477_j24300924961369_1_alg».proof.Proof.LibAfterSplit

set_option maxRecDepth 16384

noncomputable section

namespace Cert.Proof.Parts

open Idealize.ShloMosaic Idealize.ShloMosaic.TcCoe Idealize.SL.Sem Idealize.ShloMosaic.StableHlo

/-- The contents the kernel program's later lines start from: the region's exit contents. -/
abbrev Wk (m : (ℓ : Loc Cert.KernelIdeal.nD Cert.KernelIdeal.τ Cert.KernelIdeal.sig) → Buf (Elt Ideal) ℓ) (c : Dev Cert.KernelIdeal.nD) :
    Valuation Cert.KernelIdeal.τ Cert.KernelIdeal.sig (Elt Ideal) :=
  Pipeline.withArrays Cert.KernelIdeal.spec0 c (Cert.KernelIdeal.Hand.V0 m c)
    fun w => (Cert.KernelIdeal.Hand.dats m 0 c).arrAt w Cert.KernelIdeal.cfg0.N

/-- At the region's exit the output array holds the encoder of the float arguments. -/
theorem Wk_out (m) (c : Dev Cert.KernelIdeal.nD) :
    Wk m c (Proc.devRef (τ := Cert.KernelIdeal.τ) .tc Cert.KernelIdeal.main_v0)
      = Cert.Enc.enc (m ((c.tc : Thread Cert.KernelIdeal.nD Cert.KernelIdeal.τ).loc Cert.KernelIdeal.main_arg0))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) :=
  (Pipeline.withArrays_arr Cert.KernelIdeal.spec0 Cert.KernelIdeal.Gen.launch0.win.arr_inj c (Cert.KernelIdeal.Hand.V0 m c) _ (3 : Fin 4)).trans
    (Cert.KernelIdeal.HandValue.final m c)

/-- And the edge list is as launched. -/
theorem Wk_edges (m) (c : Dev Cert.KernelIdeal.nD) :
    Wk m c (Proc.devRef (τ := Cert.KernelIdeal.τ) .tc Cert.KernelIdeal.main_arg1)
      = m ((c.tc : Thread Cert.KernelIdeal.nD Cert.KernelIdeal.τ).loc Cert.KernelIdeal.main_arg1) :=
  (Pipeline.withArrays_of_ne Cert.KernelIdeal.spec0 c (Cert.KernelIdeal.Hand.V0 m c) _ Cert.KernelIdeal.main_arg1 (by decide)).trans rfl

theorem algebraic : Cert.algebraic_KernelIdeal_ReferenceIdeal := by
  intro m ρ m' ρ' _ hagree
  refine ⟨fun c => Pipeline.afterTail₀ Cert.KernelIdeal.cfgs (Cert.KernelIdeal.Hand.dats m) 0 (Cert.KernelIdeal.Hand.V0 m)
      Cert.KernelIdeal.Hand.tailOpss c Cert.KernelIdeal.main_v211, Cert.KernelIdeal.Hand.run_result m ρ, ?_⟩
  refine (θ_run Cert.ReferenceIdeal.defs _ _).mono (fun r h c => ⟨?_,
      (h c Cert.ReferenceIdeal.main_arg0).trans (Cert.ReferenceIdeal.RefValue.keeps_arg0 _),
      (h c Cert.ReferenceIdeal.main_arg1).trans (Cert.ReferenceIdeal.RefValue.keeps_arg1 _),
      (h c Cert.ReferenceIdeal.main_arg2).trans (Cert.ReferenceIdeal.RefValue.keeps_arg2 _),
      (h c Cert.ReferenceIdeal.main_arg3).trans (Cert.ReferenceIdeal.RefValue.keeps_arg3 _)⟩)
    (Cert.ReferenceIdeal.RunCopy.run_after (F := Ideal) m' ρ')
  obtain ⟨e0, e1, e2, e3⟩ := hagree c
  refine (h c Cert.ReferenceIdeal.main_v215).trans ?_
  rw [← after_drop_after_take 7]
  refine (Cert.Bridge.tails_agree (Wk m c) _ ?_ ?_).symm
  · rw [Wk_out, Cert.ReferenceIdeal.RefValue.head_v4, ← e0, ← e2, ← e3]
  · rw [Wk_edges, Cert.ReferenceIdeal.RefValue.head_arg1, ← e1]

end Cert.Proof.Parts

end
-- ==== Proof.lean ====
/-
  The certificate's five claims.

  Both programs compute  log_softmax(APPNP₁₀(enc(x, W1, W2), edges))  with the encoder
  enc(x, W1, W2)[p, q] = ∑ k, max (∑ j, x[p, j] · W1[k, j]) 0 · W2[q, k]:  the kernel's program computes the encoder in
  one region over fifty row blocks (two products into zero accumulators, the roundings to bf16 the identity on the
  extended reals), the reference by two host products with transposed weights; after the encoder both run the same host
  lines. The frames: the region's run continued by the later lines for the two kernel programs, the run of a straight
  line of host operations for the reference. No operation was rewritten by the idealization, so `preserves` is trivial.
-/
import proofs.«146477_j24300924961369_1_alg».proof.Defs
import proofs.«146477_j24300924961369_1_alg».proof.Proof.Gen.Kernel
import proofs.«146477_j24300924961369_1_alg».proof.Proof.Gen.KernelIdeal
import proofs.«146477_j24300924961369_1_alg».proof.Proof.Gen.ReferenceIdeal
import proofs.«146477_j24300924961369_1_alg».proof.Proof.Gen.Pre_finite_inputs
import proofs.«146477_j24300924961369_1_alg».proof.Proof.KTail
import proofs.«146477_j24300924961369_1_alg».proof.Proof.KiTail
import proofs.«146477_j24300924961369_1_alg».proof.Proof.RefFrame
import proofs.«146477_j24300924961369_1_alg».proof.Proof.Assemble
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ => Cert.ReferenceIdeal.RefValue.frame m ρ
theorem preserves : Cert.preserves_Kernel_KernelIdeal := trivial

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Parts.algebraic⟩

end Cert.Proof

end
